-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128x128 .f32) (main_arg4 : FVec F S1x128 .f32) (main_arg5 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S10000x512 : Shape := ⟨2, ![10000, 512]⟩
abbrev S512x128 : Shape := ⟨2, ![512, 128]⟩
abbrev S128x10000 : Shape := ⟨2, ![128, 10000]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S10000x128, .f32⟩
  | .hbm, ⟨7, _⟩ => ⟨S10000x128, .f32⟩
  | .local _ .vmem, ⟨0, _⟩ => ⟨S10000x128, .f32⟩
  | .local _ .vmem, ⟨1, _⟩ => ⟨S10000x512, .f32⟩
  | .local _ .vmem, ⟨2, _⟩ => ⟨S10000x512, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S10000x128, .f32⟩
  | .local _ .vmem, ⟨8, _⟩ => ⟨S512x128, .f32⟩
  | .local _ .vmem, ⟨9, _⟩ => ⟨S512x128, .f32⟩
  | .local _ .vmem, ⟨10, _⟩ => ⟨S128x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S10000x128_p1_0_S128x10000 : S10000x128.Transposes [1, 0] S128x10000
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  packedbf16_S128x10000_S128x10000_0_0 : (Rect.unit (s := S128x10000) ![0, 0] S128x10000.size inb_S128x10000_S128x10000_0_0).PackedRows (EltTy.packing .bf16)
  inb_S10000x512_S10000x512_0_0 : ∀ a, (![0, 0] : Fin 2 → Nat) a + S10000x512.size a ≤ S10000x512.size a
  h_S10000x512 : 0 < S10000x512.numel
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  broadcasts_S1x128_S512x128 : S1x128.Broadcasts S512x128
  iota_S512x128_d0_w32 : S512x128.Iotas .tc 32 [0]
  inb_S512x128_S512x128_0_0 : ∀ a, (![0, 0] : Fin 2 → Nat) a + S512x128.size a ≤ S512x128.size a
  h_S512x128 : 0 < S512x128.numel
  shapeCasts_S10000x128_S10000x128 : S10000x128.ShapeCasts S10000x128
  broadcasts_S1x128_S10000x128 : S1x128.Broadcasts S10000x128
  dot_S10000x128_S128x128_S10000x128_1_0_0_1_n_n_wf : DotDims.WF S10000x128 S128x128 S10000x128 [1] [0] [0] [1] [] []
  dot_S128x10000_S10000x512_S128x512_1_0_0_1_n_n_wf : DotDims.WF S128x10000 S10000x512 S128x512 [1] [0] [0] [1] [] []
  dot_S512x128_S128x128_S512x128_1_0_0_1_n_n_wf : DotDims.WF S512x128 S128x128 S512x128 [1] [0] [0] [1] [] []
  dot_S10000x512_S512x128_S10000x128_1_0_0_1_n_n_wf : DotDims.WF S10000x512 S512x128 S10000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S10000x512.size a < S10000x10000.size a
  hwx0_1 : ∀ i : grid0.Coords, EltTy.bits .f32 = 32 ∨ (Rect.unit (s := S10000x10000) (fun a => cc0_transform_1 i a * S10000x512.size a) (fun a => (Pipeline.Clip.of (cc0_transform_1 i a) (S10000x512.size a) (S10000x10000.size a)).extent (S10000x512.size a)) fun a => Pipeline.Clip.inb (Pipeline.Clip.ok_of (hstart0_1 i a))).WholeWords (EltTy.packing .f32)
  hwxs0_1 : ∀ i : grid0.Coords, EltTy.bits .f32 = 32 ∨ (Rect.unit (s := S10000x512) (fun _ => 0) (fun a => (Pipeline.Clip.of (cc0_transform_1 i a) (S10000x512.size a) (S10000x10000.size a)).extent (S10000x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S10000x128.size a
  hwx0_6 : ∀ i : grid0.Coords, EltTy.bits .f32 = 32 ∨ (Rect.block (s := S10000x128) S10000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S512x128.size a < S10000x128.size a
  hwx0_7 : ∀ i : grid0.Coords, EltTy.bits .f32 = 32 ∨ (Rect.unit (s := S10000x128) (fun a => cc0_transform_7 i a * S512x128.size a) (fun a => (Pipeline.Clip.of (cc0_transform_7 i a) (S512x128.size a) (S10000x128.size a)).extent (S512x128.size a)) fun a => Pipeline.Clip.inb (Pipeline.Clip.ok_of (hstart0_7 i a))).WholeWords (EltTy.packing .f32)
  hwxs0_7 : ∀ i : grid0.Coords, EltTy.bits .f32 = 32 ∨ (Rect.unit (s := S512x128) (fun _ => 0) (fun a => (Pipeline.Clip.of (cc0_transform_7 i a) (S512x128.size a) (S10000x128.size a)).extent (S512x128.size a)) fun a => (Nat.zero_add _).trans_le (Pipeline.Clip.extent_le (Pipeline.Clip.ok_of (hstart0_7 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x10000_S10000x512_S128x512_1_0_0_1_n_n : DotDims S128x10000 S10000x512 S128x512 where
  lhsContracting := [1]
  rhsContracting := [0]
  lhsNonContracting := [0]
  rhsNonContracting := [1]
  lhsBatch := []
  rhsBatch := []
  wf := dot_S128x10000_S10000x512_S128x512_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S10000x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S10000x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v0_1) S512x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S1x128, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  transposes_S10000x10000_S10000x10000_1_0 : S10000x10000.Transposes [1, 0] S10000x10000
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.WordFrame.lean ====
/-
  The frame of the kernel as printed: it runs to the end at every grid point, faults nowhere, and leaves its six
  argument arrays as they were.

  Nothing is said here of what the two result arrays hold. The body is run from staging buffers and a scratch
  buffer holding anything, and is shown to hand every one of them back holding something: each access is a whole
  load or a whole store of a buffer the body owns, so no access can fault whatever the words are, and the three
  conditionals (first grid point twice, last grid point once) are run either way. The six argument arrays are only
  ever fetched from, never written back to, so they end as they began.
-/
import proofs.«121287_g35845797052899_cont_8to1_b_606_25_alg».proof.Proof.Gen.Kernel.Launch
import proofs.«121287_g35845797052899_cont_8to1_b_606_25_alg».proof.Proof.Gen.Kernel.Skeleton
import proofs.«121287_g35845797052899_cont_8to1_b_606_25_alg».proof.Proof.Gen.Kernel.Points
import proofs.«121287_g35845797052899_cont_8to1_b_606_25_alg».proof.Proof.Gen.Kernel.Frame
import Idealize.ShloMosaic.Lib.Pipeline.FrameBody
import Idealize.ShloMosaic.Lib.Tactic

set_option maxRecDepth 16384

noncomputable section

namespace Cert.Kernel.Free

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: a whole buffer of the kernel's own, passed beside the windows. -/
abbrev scM : Memref sig .tc .vmem S128x10000 .bf16 := Memref.whole cc0_scratch0

/-- The region's invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The body at any grid coordinates, on any whole memrefs holding anything: it runs, and hands each memref back
    holding something. -/
theorem free_body (c : Dev nD) (i : grid0.Coords) (arg1 : Memref sig .tc .vmem S10000x128 .f32) (harg1 : arg1.IsWhole) (arg2 : Memref sig .tc .vmem S10000x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S512x128 .f32) (harg8 : arg8.IsWhole) (arg9 : Memref sig .tc .vmem S128x10000 .bf16) (harg9 : arg9.IsWhole)
    (E : Set ℕ) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d)) -∗ K ⟨⟩))
      ⊢ wp frame (wpE (defs₀ (F := F)) Variants.none c none) E (cc0__hnhn_block i arg1 harg1 arg2 harg2 arg3 harg3 arg4 harg4 arg5 harg5 arg6 harg6 arg7 harg7 arg8 harg8 arg9 harg9) K := by
  simp only [cc0__hnhn_block_eq_skeleton]; unfold cc0__hnhn_block_skel
  simp only [k0_part1_eq_skeleton]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  by_cases hc1 : (Scalar.cmpi .ne (Scalar.extui (Scalar.cmpi .eq (BitVec.ofNat 32 (i 0).val) 0#32)) 0#32) = 1#1 <;>
  by_cases hc3 : (Scalar.cmpi .ne (Scalar.extui (Scalar.cmpi .eq (BitVec.ofNat 32 (i 0).val) 19#32)) 0#32) = 1#1
  all_goals
    sl_exec (disch := first | exact hc1 | exact hc3)
    sl_step
    iapply Hk
    isplitl [H1]
    · iexists _, _; isplitr
      swap; · iexact H1
      ipureintro; rfl
    isplitl [H2]
    · iexists _, _; isplitr
      swap; · iexact H2
      ipureintro; rfl
    isplitl [H3]
    · iexists _, _; isplitr
      swap; · iexact H3
      ipureintro; rfl
    isplitl [H4]
    · iexists _, _; isplitr
      swap; · iexact H4
      ipureintro; rfl
    isplitl [H5]
    · iexists _, _; isplitr
      swap; · iexact H5
      ipureintro; rfl
    isplitl [H6]
    · iexists _, _; isplitr
      swap; · iexact H6
      ipureintro; rfl
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

/-! ## The relational data: nothing is said of what the body leaves -/

/-- The data of the one pipeline on core `c`: the arrays as launched; of what the body leaves in any staging
    buffer, nothing; the invariant the scratch at anything and the generator register at some state. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1600000 in
/-- At every point the body runs from whatever its buffers hold and hands them all back. -/
theorem body_obligation (c : Dev nD) : (rdat m c).BodyObligation (defs₀ (F := F)) Variants.none () Set.univ := fun t Y _ => by
  rw [bigSep_W0, bigSep_W0]
  rw [show (rdat m c).Φ t.castSucc = Pipeline.ΦA spec0 c from rfl, show (rdat m c).Φ t.succ = Pipeline.ΦA spec0 c from rfl, PhiA_eq]
  rw [show (rdat m c).owesAt () t.succ = (rdat m c).owesAt () t.castSucc from rfl]
  iintro ⟨⟨HS, Hg⟩, Ho, H0, H1, H2, H3, H4, H5, H6, H7⟩
  iapply (free_body (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS]; · iexact HS
  iintro ⟨⟨%X0, H0⟩, ⟨%X1, H1⟩, ⟨%X2, H2⟩, ⟨%X3, H3⟩, ⟨%X4, H4⟩, ⟨%X5, H5⟩, ⟨%X6, H6⟩, ⟨%X7, H7⟩, HS⟩
  isplitl [HS Hg]
  · isplitl [HS]; · iexact HS
    iexact Hg
  isplitl [Ho]; · iexact Ho
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  isplitl [H5]; · iexists X5; isplitr; · ipureintro; trivial
                  iexact H5
  isplitl [H6]; · iexists X6; isplitr; · ipureintro; trivial
                  iexact H6
  iexists X7; isplitr; · ipureintro; trivial
  iexact H7

set_option backward.isDefEq.respectTransparency.types false in
/-- Every weakly fair execution of @main terminates, and every array ends at contents it may hold after the
    write-backs: an argument array, never written back to, at its launch contents. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨Eq.mp (congrFun ((rdat m c).ArrAt_in 0 rfl cfg0.N) _) ((h c).1 0),
     Eq.mp (congrFun ((rdat m c).ArrAt_in 1 rfl cfg0.N) _) ((h c).1 1),
     Eq.mp (congrFun ((rdat m c).ArrAt_in 2 rfl cfg0.N) _) ((h c).1 2),
     Eq.mp (congrFun ((rdat m c).ArrAt_in 3 rfl cfg0.N) _) ((h c).1 3),
     Eq.mp (congrFun ((rdat m c).ArrAt_in 4 rfl cfg0.N) _) ((h c).1 4),
     Eq.mp (congrFun ((rdat m c).ArrAt_in 5 rfl cfg0.N) _) ((h c).1 5)⟩) (run_main m ρ)

end Cert.Kernel.Free

end
-- ==== Proof.LibWholeStore.lean ====
/-
  Whole-buffer accesses read back.

  A store through the rectangle that spans a whole shape (offsets zero, the shape's own sizes), made last, leaves
  its payload whatever was stored before and whatever the buffer held; a load through that rectangle of a whole
  memref whose contents read `x` reads `x`. Both are stated over an abstract shape, so that no proof about a
  particular buffer ever unfolds membership in a rectangle of its extents.
-/
import Idealize.ShloMosaic.Lib.Pipeline.FrameBody
import Idealize.ShloMosaic.Lib.Pipeline.Value

noncomputable section

namespace Cert.LibWholeStore

open Idealize.ShloMosaic

variable {sig : RefSig} {κ : Kind} {sp : Space} {S : Shape} {e : EltTy} {Val : EltTy → Type}

/-- After a list of stores whose LAST is a store of `w` through the whole-shape rectangle, the view reads `w`. -/
theorem read_writes_whole [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.mem_cons.mpr (Or.inl rfl),
      View.mem_set_unit_zero h inb y⟩), View.canon_cons_unit_zero h]

/-- A load through the whole-shape rectangle of a whole memref holding (as read through its view) `x` reads `x`. -/
theorem readAt_unread_whole (m : Memref sig κ sp S e) (hm : m.IsWhole) (x : S.Idx → Val e)
    {off : Fin S.rank → Nat} (h : off = fun _ => 0) (inb : ∀ a, off a + S.size a ≤ S.size a) :
    m.view.readAt Val (Rect.unit off S.size inb).toLoadRect (hm.unread x) = x := by
  rw [View.readAt_eq_ld, hm.read_unread, View.ld_unit_zero h]

end Cert.LibWholeStore

end
-- ==== Proof.IdealRuns.lean ====
/-
  The kernel body run at each of its three kinds of grid point, with what every buffer holds afterwards NAMED: the
  pure terms the body stores (the generated payloads), as functions of what the buffers held when the body started.

  Every access of the body is a load or a store of a whole buffer, so what a buffer reads after the body is the
  payload of the last store into it, and a load after a store reads that store's payload. The three conditionals
  are decided by the kind of point: the first point fills the scratch and zeroes the accumulator, the last point
  finishes the accumulator, the points between do neither.
-/
import proofs.«121287_g35845797052899_cont_8to1_b_606_25_alg».proof.Proof.Gen.KernelIdeal.Launch
import proofs.«121287_g35845797052899_cont_8to1_b_606_25_alg».proof.Proof.Gen.KernelIdeal.Skeleton
import proofs.«121287_g35845797052899_cont_8to1_b_606_25_alg».proof.Proof.Gen.KernelIdeal.Points
import proofs.«121287_g35845797052899_cont_8to1_b_606_25_alg».proof.Proof.Gen.KernelIdeal.Frame
import proofs.«121287_g35845797052899_cont_8to1_b_606_25_alg».proof.Proof.LibWholeStore
import Idealize.ShloMosaic.Lib.Pipeline.Value
import Idealize.ShloMosaic.Lib.Pipeline.FrameBody
import Idealize.ShloMosaic.Lib.Tactic

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ
/-- The body at the FIRST grid point (the first-point branches taken, the last-point branch not): from the six input
    blocks at given contents and the two output buffers and the scratch at anything, it runs to the scratch holding
    the transposed projected features (payload 2 of the node features and the first weights), the hyperedge buffer
    holding the rectified masked hyperedge rows (payload 5) and the accumulator holding zero plus this stripe's
    contribution (payload 7 over payload 6), each computed from the scratch just written; the inputs as they were. -/
theorem run_first (c : Dev nD) (i : grid0.Coords) (arg1 : Memref sig .tc .vmem S10000x128 .f32) (harg1 : arg1.IsWhole) (arg2 : Memref sig .tc .vmem S10000x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S512x128 .f32) (harg8 : arg8.IsWhole) (arg9 : Memref sig .tc .vmem S128x10000 .bf16) (harg9 : arg9.IsWhole)
    (hcA : (Scalar.cmpi .ne (Scalar.extui (Scalar.cmpi .eq (BitVec.ofNat 32 (i 0).val) 0#32)) 0#32) = 1#1) (hcC : ¬((Scalar.cmpi .ne (Scalar.extui (Scalar.cmpi .eq (BitVec.ofNat 32 (i 0).val) 19#32)) 0#32) = 1#1))
    (x0 : Vec F S10000x128 .f32) (x1 : Vec F S10000x512 .f32) (x2 : Vec F S128x128 .f32) (x3 : Vec F S128x128 .f32) (x4 : Vec F S1x128 .f32) (x5 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay7 i x1 (k0_pay2 x0 x2) x4 x3 (k0_pay6 (F := F))) ∗ owns (c : Thread nD τ) arg8 fullShare (k0_pay5 i x1 (k0_pay2 x0 x2) x4)
            ∗ owns (c : Thread nD τ) arg9 fullShare (k0_pay2 x0 x2)) -∗ K ⟨⟩))
      ⊢ wp frame (wpE (defs₀ (F := F)) Variants.none c none) E (cc0__hnhn_block i arg1 harg1 arg2 harg2 arg3 harg3 arg4 harg4 arg5 harg5 arg6 harg6 arg7 harg7 arg8 harg8 arg9 harg9) K := by
  simp only [cc0__hnhn_block_eq_skeleton]; unfold cc0__hnhn_block_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hcA | exact hcC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have hz : (![0, 0] : Fin 2 → Nat) = fun _ => 0 := funext fun a => by fin_cases a <;> rfl
  isplitl [H7]
  · iexists _; isplitr
    swap; · iexact H7
    ipureintro
    sl_unfold_run_names
    rw [Cert.LibWholeStore.read_writes_whole _ _ hz]
    rw [View.readCov_unit_zero arg9.view hz, View.readCov_unit_zero arg7.view hz]
    rw [Cert.LibWholeStore.readAt_unread_whole arg2 harg2 x1 hz, Cert.LibWholeStore.readAt_unread_whole arg1 harg1 x0 hz,
      Cert.LibWholeStore.readAt_unread_whole arg3 harg3 x2 hz,
      Cert.LibWholeStore.readAt_unread_whole arg5 harg5 x4 hz, Cert.LibWholeStore.readAt_unread_whole arg4 harg4 x3 hz]
  isplitl [H8]
  · iexists _; isplitr
    swap; · iexact H8
    ipureintro
    sl_unfold_run_names
    rw [Cert.LibWholeStore.read_writes_whole _ _ hz]
    rw [View.readCov_unit_zero arg9.view hz]
    rw [Cert.LibWholeStore.readAt_unread_whole arg2 harg2 x1 hz, Cert.LibWholeStore.readAt_unread_whole arg1 harg1 x0 hz,
      Cert.LibWholeStore.readAt_unread_whole arg3 harg3 x2 hz, Cert.LibWholeStore.readAt_unread_whole arg5 harg5 x4 hz]
  iexists _; isplitr
  swap; · iexact H9
  ipureintro
  sl_unfold_run_names
  rw [Cert.LibWholeStore.read_writes_whole _ _ hz]
  rw [Cert.LibWholeStore.readAt_unread_whole arg1 harg1 x0 hz, Cert.LibWholeStore.readAt_unread_whole arg3 harg3 x2 hz]

/-- The body at a MIDDLE grid point (no branch taken): the scratch is read, not written; the accumulator is read and
    this stripe's contribution added to it (payload 7); the hyperedge buffer gets payload 5. -/
theorem run_mid (c : Dev nD) (i : grid0.Coords) (arg1 : Memref sig .tc .vmem S10000x128 .f32) (harg1 : arg1.IsWhole) (arg2 : Memref sig .tc .vmem S10000x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S512x128 .f32) (harg8 : arg8.IsWhole) (arg9 : Memref sig .tc .vmem S128x10000 .bf16) (harg9 : arg9.IsWhole)
    (hcA : ¬((Scalar.cmpi .ne (Scalar.extui (Scalar.cmpi .eq (BitVec.ofNat 32 (i 0).val) 0#32)) 0#32) = 1#1)) (hcC : ¬((Scalar.cmpi .ne (Scalar.extui (Scalar.cmpi .eq (BitVec.ofNat 32 (i 0).val) 19#32)) 0#32) = 1#1))
    (x0 : Vec F S10000x128 .f32) (x1 : Vec F S10000x512 .f32) (x2 : Vec F S128x128 .f32) (x3 : Vec F S128x128 .f32) (x4 : Vec F S1x128 .f32) (x5 : Vec F S1x128 .f32) (a : Vec F S10000x128 .f32) (ht : Vec F S128x10000 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare a ∗ (∃ d, owns (c : Thread nD τ) arg8 fullShare d) ∗ owns (c : Thread nD τ) arg9 fullShare ht
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay7 i x1 ht x4 x3 a) ∗ owns (c : Thread nD τ) arg8 fullShare (k0_pay5 i x1 ht x4)
            ∗ owns (c : Thread nD τ) arg9 fullShare ht) -∗ K ⟨⟩))
      ⊢ wp frame (wpE (defs₀ (F := F)) Variants.none c none) E (cc0__hnhn_block i arg1 harg1 arg2 harg2 arg3 harg3 arg4 harg4 arg5 harg5 arg6 harg6 arg7 harg7 arg8 harg8 arg9 harg9) K := by
  simp only [cc0__hnhn_block_eq_skeleton]; unfold cc0__hnhn_block_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9
  sl_exec (disch := first | exact hcA | exact hcC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    have hz : (![0, 0] : Fin 2 → Nat) = fun _ => 0 := funext fun a => by fin_cases a <;> rfl
    rw [Cert.LibWholeStore.read_writes_whole _ _ hz]
    sl_unfold_run_names
    rw [Cert.LibWholeStore.readAt_unread_whole arg2 harg2 x1 hz, Cert.LibWholeStore.readAt_unread_whole arg9 harg9 ht hz,
      Cert.LibWholeStore.readAt_unread_whole arg5 harg5 x4 hz, Cert.LibWholeStore.readAt_unread_whole arg4 harg4 x3 hz,
      Cert.LibWholeStore.readAt_unread_whole arg7 harg7 a hz]
  isplitl [H8]
  · iexists _; isplitr
    swap; · iexact H8
    ipureintro
    have hz : (![0, 0] : Fin 2 → Nat) = fun _ => 0 := funext fun a => by fin_cases a <;> rfl
    rw [Cert.LibWholeStore.read_writes_whole _ _ hz]
    rw [Cert.LibWholeStore.readAt_unread_whole arg2 harg2 x1 hz, Cert.LibWholeStore.readAt_unread_whole arg9 harg9 ht hz,
      Cert.LibWholeStore.readAt_unread_whole arg5 harg5 x4 hz]
  iexists _; isplitr; · ipureintro; exact harg9.read_unread _
  iexact H9

/-- The body at the LAST grid point (only the last-point branch taken): as at a middle point, and then the
    accumulator, read back, gets the second bias added and is rectified (payload 1 of payload 7). -/
theorem run_last (c : Dev nD) (i : grid0.Coords) (arg1 : Memref sig .tc .vmem S10000x128 .f32) (harg1 : arg1.IsWhole) (arg2 : Memref sig .tc .vmem S10000x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S512x128 .f32) (harg8 : arg8.IsWhole) (arg9 : Memref sig .tc .vmem S128x10000 .bf16) (harg9 : arg9.IsWhole)
    (hcA : ¬((Scalar.cmpi .ne (Scalar.extui (Scalar.cmpi .eq (BitVec.ofNat 32 (i 0).val) 0#32)) 0#32) = 1#1)) (hcC : (Scalar.cmpi .ne (Scalar.extui (Scalar.cmpi .eq (BitVec.ofNat 32 (i 0).val) 19#32)) 0#32) = 1#1)
    (x0 : Vec F S10000x128 .f32) (x1 : Vec F S10000x512 .f32) (x2 : Vec F S128x128 .f32) (x3 : Vec F S128x128 .f32) (x4 : Vec F S1x128 .f32) (x5 : Vec F S1x128 .f32) (a : Vec F S10000x128 .f32) (ht : Vec F S128x10000 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ owns (c : Thread nD τ) arg7 fullShare a ∗ (∃ d, owns (c : Thread nD τ) arg8 fullShare d) ∗ owns (c : Thread nD τ) arg9 fullShare ht
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay1 (k0_pay7 i x1 ht x4 x3 a) x5) ∗ owns (c : Thread nD τ) arg8 fullShare (k0_pay5 i x1 ht x4)
            ∗ owns (c : Thread nD τ) arg9 fullShare ht) -∗ K ⟨⟩))
      ⊢ wp frame (wpE (defs₀ (F := F)) Variants.none c none) E (cc0__hnhn_block i arg1 harg1 arg2 harg2 arg3 harg3 arg4 harg4 arg5 harg5 arg6 harg6 arg7 harg7 arg8 harg8 arg9 harg9) K := by
  simp only [cc0__hnhn_block_eq_skeleton]; unfold cc0__hnhn_block_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg9.eq_unread hf9
  sl_exec (disch := first | exact hcA | exact hcC)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  have hz : (![0, 0] : Fin 2 → Nat) = fun _ => 0 := funext fun a => by fin_cases a <;> rfl
  isplitl [H7]
  · iexists _; isplitr
    swap; · iexact H7
    ipureintro
    sl_unfold_run_names
    rw [Cert.LibWholeStore.read_writes_whole _ _ hz]
    rw [View.readCov_unit_zero arg7.view hz]
    rw [Cert.LibWholeStore.readAt_unread_whole arg2 harg2 x1 hz, Cert.LibWholeStore.readAt_unread_whole arg9 harg9 ht hz,
      Cert.LibWholeStore.readAt_unread_whole arg5 harg5 x4 hz, Cert.LibWholeStore.readAt_unread_whole arg4 harg4 x3 hz,
      Cert.LibWholeStore.readAt_unread_whole arg7 harg7 a hz, Cert.LibWholeStore.readAt_unread_whole arg6 harg6 x5 hz]
  isplitl [H8]
  · iexists _; isplitr
    swap; · iexact H8
    ipureintro
    rw [Cert.LibWholeStore.read_writes_whole _ _ hz]
    rw [Cert.LibWholeStore.readAt_unread_whole arg2 harg2 x1 hz, Cert.LibWholeStore.readAt_unread_whole arg9 harg9 ht hz,
      Cert.LibWholeStore.readAt_unread_whole arg5 harg5 x4 hz]
  iexists _; isplitr; · ipureintro; exact harg9.read_unread _
  iexact H9

end Cert.KernelIdeal.Valued

end
-- ==== Proof.Spec.lean ====
/-
  What the layer computes, as two functions of the six argument arrays, entry by entry over the extended reals.

  With x₀ the node features (10000 × 128), B the incidence matrix (nodes × hyperedges, 10000 × 10000), W₀ and W₁
  the two weight matrices (128 × 128) and b₀, b₁ the two bias rows (1 × 128):

    h   = x₀ W₀                      node features projected,
    u   = Bᵀ h + b₀                  one row per hyperedge (before the rectifier),
    x₁  = max(u, 0)                  the second result,
    x₀' = max(B (u W₁) + b₁, 0)      the first result.

  Every sum is a plain finite sum over the contraction index; nothing here mentions a program.
-/
import Idealize.ShloMosaic.Lib.ValueIdx
import Idealize.ShloMosaic.PureOps.Ideal

noncomputable section

open scoped BigOperators

namespace Cert.Spec

open Idealize.ShloMosaic Idealize.ShloMosaic.ValueIdx

/-- An a × b matrix of extended reals, indexed as the programs index their rank-2 arrays. -/
abbrev Mat (a b : ℕ) : Type := (⟨2, ![a, b]⟩ : Shape).Idx → EReal

variable (x0 : Mat 10000 128) (B : Mat 10000 10000) (w0 w1 : Mat 128 128) (b0 b1 : Mat 1 128)

/-- h = x₀ W₀ at (n, d). -/
def hfeat (n : Fin 10000) (d : Fin 128) : EReal := ∑ k : Fin 128, x0 (ix2 n k) * w0 (ix2 k d)

/-- u = Bᵀ h + b₀ at (hyperedge E, d). -/
def edgePre (E : Fin 10000) (d : Fin 128) : EReal :=
  (∑ n : Fin 10000, B (ix2 n E) * hfeat x0 w0 n d) + b0 (ix2 0 d)

/-- u W₁ at (hyperedge E, d). -/
def edgeProj (E : Fin 10000) (d : Fin 128) : EReal := ∑ k : Fin 128, edgePre x0 B w0 b0 E k * w1 (ix2 k d)

/-- The second result, x₁ = max(u, 0). -/
def G1 : Mat 10000 128 := fun j => max (edgePre x0 B w0 b0 (j 0) (j 1)) 0

/-- The first result, x₀' = max(B (u W₁) + b₁, 0). -/
def G0 : Mat 10000 128 := fun j =>
  max ((∑ E : Fin 10000, B (ix2 (j 0) E) * edgeProj x0 B w0 w1 b0 E (j 1)) + b1 (ix2 0 (j 1))) 0

end Cert.Spec

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KernelPayloadsMask.lean ====
/-
  The row mask of a column stripe, as arithmetic.

  Stripe t (of 20) covers hyperedges t·512 … t·512 + 511.  The program keeps row e of the stripe when the 32-bit word of e
  is below, as signed integers, the 32-bit word 10000 − t·512.  For t < 20 and e < 512 neither word wraps, so the test
  says exactly that hyperedge t·512 + e exists: t·512 + e < 10000.  Decided over the 20 · 512 cases.
-/
import Idealize.ShloMosaic.Lib.ValueIdx

namespace Cert.KernelIdeal.Payloads

open Idealize.ShloMosaic

/-- The signed comparison of the row word with the words left in the stripe is the bound on the hyperedge number. -/
theorem mask_iff : ∀ (t : Fin 20) (e : Fin 512),
    (Scalar.cmpi .slt (BitVec.ofNat 32 e.val) (Scalar.subi 10000#32 (Scalar.muli (BitVec.ofNat 32 t.val) 512#32)) = 1#1)
      ↔ t.val * 512 + e.val < 10000 := by
  decide +kernel

end Cert.KernelIdeal.Payloads
-- ==== Proof.KernelPayloads.lean ====
/-
  The kernel's seven pure values, read entry by entry over the extended reals.

  At the ideal values a change of float format is the identity, a product into a zero accumulator is the textbook
  sum over the contraction index, a transpose reads the operand at the swapped index, and a 1 × 128 row broadcast over
  many rows reads the row.  With these each value the kernel stores or carries is, at an entry:

    the projected node features, transposed      h(n, d) = Σ_k x₀(n, k) · W₀(k, d), stored at (d, n);
    a stripe's hyperedge rows before the rectifier  Σ_n hᵀ(k, n) · B(n, e) + b₀(k) where the hyperedge t·512 + e exists, 0 where it
                                                  does not (the rows of the last stripe that overhang the 10000 hyperedges);
    the same after the rectifier                  max(·, 0);
    the accumulator after a stripe                a(n, d) + Σ_e B(n, e) · Σ_k u(e, k) · W₁(k, d);
    the accumulator's first value                 0;
    the first result from the last accumulator    max(a(n, d) + b₁(d), 0).
-/
import proofs.«121287_g35845797052899_cont_8to1_b_606_25_alg».proof.Proof.Gen.KernelIdeal.Skeleton
import proofs.«121287_g35845797052899_cont_8to1_b_606_25_alg».proof.Proof.Spec
import proofs.«121287_g35845797052899_cont_8to1_b_606_25_alg».proof.Proof.LibPlainDot
import proofs.«121287_g35845797052899_cont_8to1_b_606_25_alg».proof.Proof.KernelPayloadsMask
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The four products are plain M×K by K×N products -/

theorem dot_features_eq : dot_S10000x128_S128x128_S10000x128_1_0_0_1_n_n = DotDims.plain 10000 128 128 := rfl
theorem dot_stripe_eq : dot_S128x10000_S10000x512_S128x512_1_0_0_1_n_n = DotDims.plain 128 10000 512 := rfl
theorem dot_project_eq : dot_S512x128_S128x128_S512x128_1_0_0_1_n_n = DotDims.plain 512 128 128 := rfl
theorem dot_scatter_eq : dot_S10000x512_S512x128_S10000x128_1_0_0_1_n_n = DotDims.plain 10000 512 128 := rfl

/-! ## The accumulator's first value, and the first result from its last -/

/-- The accumulator starts at zero. -/
theorem pay6_apply (n : Fin 10000) (d : Fin 128) : k0_pay6 (F := Ideal) (ix2 n d) = 0 := by
  unfold k0_pay6
  exact Ideal.ofBits_zero_f32

/-- The first result: the accumulator plus the bias row, rectified. -/
theorem pay1_apply (a : Vec Ideal S10000x128 .f32) (b1 : Vec Ideal S1x128 .f32) (n : Fin 10000) (d : Fin 128) :
    k0_pay1 (F := Ideal) a b1 (ix2 n d) = max (a (ix2 n d) + b1 (ix2 0 d)) 0 := by
  unfold k0_pay1
  rw [shapeCast_self]
  show max (a (ix2 n d) + broadcastTo S10000x128 b1 broadcasts_S1x128_S10000x128 (ix2 n d)) (Ideal.ofBits .f32 0x00000000#32) = _
  rw [broadcastTo_1b_ab_apply, Ideal.ofBits_zero_f32]

/-! ## The projected node features, transposed -/

/-- Entry (d, n) of the transposed projection is h(n, d). -/
theorem pay2_apply (x0 : Vec Ideal S10000x128 .f32) (w0 : Vec Ideal S128x128 .f32) (d : Fin 128) (n : Fin 10000) :
    k0_pay2 (F := Ideal) x0 w0 (ix2 d n) = Cert.Spec.hfeat x0 w0 n d := by
  unfold k0_pay2
  rw [shapeCast_self]
  refine (transpose_apply [1, 0] _ transposes_S10000x128_p1_0_S128x10000 (ix2 d n) (ix2 n d)
    (fun b => match b with | ⟨0, _⟩ => rfl | ⟨1, _⟩ => rfl)).trans ?_
  exact Cert.LibPlainDot.matmul_zero_apply none _ _ n d

/-! ## A stripe's hyperedge rows -/

/-- The mask at row e of stripe i: one exactly where hyperedge i·512 + e exists. The row word is the word of e, and the
    comparison of the two words is the bound by the arithmetic lemma. -/
theorem mask_apply (i : grid0.Coords) (e : Fin 512) (k : Fin 128) :
    cmpi .slt (iota .tc S512x128 32 [0] iota_S512x128_d0_w32)
        (broadcast S512x128 (Scalar.subi 10000#32 (Scalar.muli (BitVec.ofNat 32 (i 0).val) 512#32))) (ix2 e k)
      = if (i 0).val * 512 + e.val < 10000 then 1#1 else 0#1 := by
  have h0 : iota .tc S512x128 32 [0] iota_S512x128_d0_w32 (ix2 e k) = BitVec.ofNat 32 e.val :=
    iota_single_apply .tc S512x128 32 _ iota_S512x128_d0_w32 (ix2 e k)
  show Scalar.cmpi .slt (iota .tc S512x128 32 [0] iota_S512x128_d0_w32 (ix2 e k))
      (Scalar.subi 10000#32 (Scalar.muli (BitVec.ofNat 32 (i 0).val) 512#32)) = _
  rw [h0]
  by_cases h : (i 0).val * 512 + e.val < 10000
  · rw [if_pos h]
    exact (mask_iff (i 0) e).mpr h
  · rw [if_neg h]
    exact eq_zero_of_ne_one (fun hc => h ((mask_iff (i 0) e).mp hc))

/-- Row e of stripe i before the rectifier: Σ_n hᵀ(k, n) · B(n, e) + b₀(k) where the hyperedge exists, zero where it does not. -/
theorem pay4_apply (i : grid0.Coords) (X : Vec Ideal S10000x512 .f32) (HT : Vec Ideal S128x10000 .bf16) (b0 : Vec Ideal S1x128 .f32)
    (e : Fin 512) (k : Fin 128) :
    k0_pay4 (F := Ideal) i X HT b0 (ix2 e k)
      = if (i 0).val * 512 + e.val < 10000 then (∑ n : Fin 10000, HT (ix2 k n) * X (ix2 n e)) + b0 (ix2 0 k) else 0 := by
  unfold k0_pay4 k0_pay3
  refine (select_apply _ _ _ (ix2 e k)).trans ?_
  rw [mask_apply i e k]
  by_cases h : (i 0).val * 512 + e.val < 10000
  · rw [if_pos h, if_pos h]
    refine (select_one _ _).trans ?_
    refine (addf_apply _ _ _).trans ?_
    rw [broadcastTo_1b_ab_apply]
    refine congrArg (· + b0 (ix2 0 k)) ?_
    refine (transpose_apply [1, 0] _ transposes_S128x512_p1_0_S512x128 (ix2 e k) (ix2 k e)
      (fun b => match b with | ⟨0, _⟩ => rfl | ⟨1, _⟩ => rfl)).trans ?_
    exact Cert.LibPlainDot.matmul_zero_apply none HT _ k e
  · rw [if_neg h, if_neg h]
    refine (select_zero _ _).trans ?_
    exact Ideal.ofBits_zero_f32

/-- The same row after the rectifier. -/
theorem pay5_apply (i : grid0.Coords) (X : Vec Ideal S10000x512 .f32) (HT : Vec Ideal S128x10000 .bf16) (b0 : Vec Ideal S1x128 .f32)
    (e : Fin 512) (k : Fin 128) :
    k0_pay5 (F := Ideal) i X HT b0 (ix2 e k) = max (k0_pay4 (F := Ideal) i X HT b0 (ix2 e k)) 0 := by
  unfold k0_pay5
  refine (maximumf_apply _ _ _).trans ?_
  exact congrArg (max _) Ideal.ofBits_zero_f32

/-! ## The accumulator after a stripe -/

/-- The stripe's rows are projected by W₁ and scattered back to the nodes by the stripe of B, on top of the accumulator. -/
theorem pay7_apply (i : grid0.Coords) (X : Vec Ideal S10000x512 .f32) (HT : Vec Ideal S128x10000 .bf16) (b0 : Vec Ideal S1x128 .f32)
    (W1 : Vec Ideal S128x128 .f32) (a : Vec Ideal S10000x128 .f32) (n : Fin 10000) (d : Fin 128) :
    k0_pay7 (F := Ideal) i X HT b0 W1 a (ix2 n d)
      = a (ix2 n d) + ∑ e : Fin 512, X (ix2 n e) * ∑ k : Fin 128, k0_pay4 (F := Ideal) i X HT b0 (ix2 e k) * W1 (ix2 k d) := by
  unfold k0_pay7 k0_pay3
  refine (addf_apply _ _ _).trans ?_
  rw [shapeCast_self]
  refine congrArg (a (ix2 n d) + ·) ?_
  refine (Cert.LibPlainDot.matmul_zero_apply (M := 10000) (K := 512) (N := 128) none (truncf .bf16 X bitsLt_bf16_f32) _ n d).trans ?_
  refine Finset.sum_congr rfl fun e _ => ?_
  refine congrArg (X (ix2 n e) * ·) ?_
  refine (truncf_apply _ bitsLt_bf16_f32 (ix2 e d)).trans ?_
  refine (Cert.LibPlainDot.matmul_zero_apply (M := 512) (K := 128) (N := 128) none
    (truncf .bf16 (k0_pay4 (F := Ideal) i X HT b0) bitsLt_bf16_f32) W1 e d).trans ?_
  refine Finset.sum_congr rfl fun k _ => ?_
  exact congrArg (· * W1 (ix2 k d)) (truncf_apply (k0_pay4 (F := Ideal) i X HT b0) bitsLt_bf16_f32 (ix2 e k))

end Cert.KernelIdeal.Payloads

end
-- ==== Proof.BlockReads.lean ====
/-
  The kernel's windows read at an index.

  The kernel walks a grid of 20 points t = 0, …, 19.  Its incidence-matrix window moves along the columns in blocks of
  10000 × 512, block index (0, t); the window of its second result moves along the rows in blocks of 512 × 128, block
  index (t, 0); the other windows are whole arrays at block index (0, 0).  A block's coordinate in the array is always
  block index × block size + the coordinate inside the block.  20 · 512 = 10240 exceeds 10000, so the last block of
  each moving window overhangs the array by 240 and its transfer is cut: at point t it moves the first
  min 512 (10000 − 512 t) columns (rows) of the block, which is all 512 for t < 19 and 272 for t = 19.

  This file states those facts (decided over the 20 points) and what follows from them: which entries of a block a
  fetch fills, that a filled entry is the array's entry at the block's place and does not depend on what the staging
  buffer held before, and that a whole-array window reads the array itself.
-/
import proofs.«121287_g35845797052899_cont_8to1_b_606_25_alg».proof.Proof.Gen.KernelIdeal.Points
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx

/-! ## The grid and the block indices, decided over the 20 points -/

/-- The grid has one axis: a point's coordinate is the point. -/
theorem coords0 : ∀ t : Fin cfg0.N, ((grid0.coords t) (0 : Fin 1)).val = t.val :=
  (by decide +kernel : ∀ t : Fin grid0.N, ((grid0.coords t) (0 : Fin 1)).val = t.val)

/-- A point is below 20. -/
theorem lt20 (t : Fin cfg0.N) : t.val < 20 := by
  have h : t.val < grid0.N := t.isLt
  rw [show grid0.N = 20 by decide] at h
  exact h

/-- The incidence matrix's window: block index (0, t). -/
theorem index1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- The incidence matrix's window: the transfer moves all 10000 rows and the block's columns inside the array. -/
theorem xsize1 : ∀ t : Fin cfg0.N, win0_1.xsize (grid0.coords t) (0 : Fin 2) = 10000
    ∧ win0_1.xsize (grid0.coords t) (1 : Fin 2) = min 512 (10000 - t.val * 512) :=
  (by decide +kernel : ∀ t : Fin grid0.N, win0_1.xsize (grid0.coords t) (0 : Fin 2) = 10000
    ∧ win0_1.xsize (grid0.coords t) (1 : Fin 2) = min 512 (10000 - t.val * 512))

/-- The second result's window: block index (t, 0). -/
theorem index7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The second result's window: the transfer moves the block's rows inside the array and all 128 columns. -/
theorem xsize7 : ∀ t : Fin cfg0.N, win0_7.xsize (grid0.coords t) (0 : Fin 2) = min 512 (10000 - t.val * 512)
    ∧ win0_7.xsize (grid0.coords t) (1 : Fin 2) = 128 :=
  (by decide +kernel : ∀ t : Fin grid0.N, win0_7.xsize (grid0.coords t) (0 : Fin 2) = min 512 (10000 - t.val * 512)
    ∧ win0_7.xsize (grid0.coords t) (1 : Fin 2) = 128)

/-! ## A fetch of a cut block -/

/-- A moved entry of a filled block is the fetched part's entry. -/
theorem fill_of_moved {G : Pipeline.Grid} (w : Pipeline.Window sig G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Pipeline.Window.fill; rw [dif_pos h]

/-- The fetch at point t moves the block's entry (n, e) iff column 512 t + e is a column of the array. -/
theorem moved1_iff (t : Fin cfg0.N) (j : S10000x512.Idx) :
    win0_1.moved (grid0.coords t) j = true ↔ t.val * 512 + (j 1).val < 10000 := by
  rw [win0_1.moved_iff]
  obtain ⟨x0, x1⟩ := xsize1 t
  have h0 : (j 0).val < 10000 := (j 0).isLt
  have h1 : (j 1).val < 512 := (j 1).isLt
  constructor
  · intro h
    have h' : (j 1).val < win0_1.xsize (grid0.coords t) (1 : Fin 2) := h 1
    rw [x1] at h'
    omega
  · intro h a
    match a with
    | ⟨0, _⟩ => show (j 0).val < win0_1.xsize (grid0.coords t) (0 : Fin 2); rw [x0]; exact h0
    | ⟨1, _⟩ => show (j 1).val < win0_1.xsize (grid0.coords t) (1 : Fin 2); rw [x1]; omega

/-- A filled entry inside the array does not depend on what the block held before. -/
theorem fill1_indep (t : Fin cfg0.N) (d d' : S10000x512.Idx → Elt Ideal .f32)
    (g : (win0_1.xblock (grid0.coords t)).Idx → Elt Ideal .f32) (n : Fin 10000) (e : Fin 512)
    (h : t.val * 512 + e.val < 10000) :
    win0_1.fill (grid0.coords t) d g (ix2 n e) = win0_1.fill (grid0.coords t) d' g (ix2 n e) := by
  have hm : win0_1.moved (grid0.coords t) (ix2 n e) = true := (moved1_iff t (ix2 n e)).mpr h
  exact (fill_of_moved win0_1 (grid0.coords t) d g hm).trans (fill_of_moved win0_1 (grid0.coords t) d' g hm).symm

/-- A filled entry inside the array is the incidence matrix at row n, column 512 t + e. -/
theorem fill1_inside (A : S10000x10000.Idx → Elt Ideal .f32) (t : Fin cfg0.N) (d : S10000x512.Idx → Elt Ideal .f32)
    (n : Fin 10000) (e : Fin 512) (h : t.val * 512 + e.val < 10000) :
    win0_1.fill (grid0.coords t) d (((cfg0.win 1).blk t).view.read (Elt Ideal) A) (ix2 n e)
      = A (ix2 n ⟨t.val * 512 + e.val, h⟩) := by
  have hm : win0_1.moved (grid0.coords t) (ix2 n e) = true := (moved1_iff t (ix2 n e)).mpr h
  rw [fill_of_moved win0_1 (grid0.coords t) d _ hm]
  obtain ⟨i0, i1⟩ := index1 t
  show A (((cfg0.win 1).blk t).view.emb _) = A (ix2 n ⟨t.val * 512 + e.val, h⟩)
  congr 1
  funext a; apply Fin.ext
  match a with
  | ⟨0, _⟩ => show win0_1.index t (0 : Fin 2) * 10000 + 1 * n.val = n.val; rw [i0]; omega
  | ⟨1, _⟩ => show win0_1.index t (1 : Fin 2) * 512 + 1 * e.val = t.val * 512 + e.val; rw [i1]; omega

end Cert.KernelIdeal.Blocks

end
-- ==== Proof.IdealFill.lean ====
/-
  The body's stores do not see the words past the array's last column.

  At a grid point whose stripe overhangs the incidence matrix, the stripe's staging buffer holds, in its columns past
  the array's end, words nothing names. Column e of the stripe feeds row e of the hyperedge block, and exactly the
  rows whose column lies past the end are masked to zero before anything else reads them; in the accumulation each
  such column then meets a row of zeros, and zero times any extended real is zero. So both stored values are the
  same whatever fills the stripe out.
-/
import proofs.«121287_g35845797052899_cont_8to1_b_606_25_alg».proof.Proof.KernelPayloads
import proofs.«121287_g35845797052899_cont_8to1_b_606_25_alg».proof.Proof.BlockReads

noncomputable section

open scoped BigOperators

namespace Cert.KernelIdeal.Valued

open Cert.KernelIdeal Cert.KernelIdeal.Gen Idealize.ShloMosaic Idealize.ShloMosaic.ValueIdx
open Cert.KernelIdeal.Payloads Cert.KernelIdeal.Blocks

variable (t : Fin cfg0.N) (d d' : win0_1.block.Idx → Elt Ideal .f32) (g : (win0_1.xblock (grid0.coords t)).Idx → Elt Ideal .f32)
  {HT : Vec Ideal S128x10000 .bf16} {b0 : Vec Ideal S1x128 .f32}

/-- The masked hyperedge rows do not depend on what fills the stripe out: inside the array both stripes are the
    array's columns, and past it the row is zero. -/
theorem pay4_fill_indep (e : Fin 512) (k : Fin 128) :
    k0_pay4 (F := Ideal) (grid0.coords t) (win0_1.fill (grid0.coords t) d g) HT b0 (ix2 e k)
      = k0_pay4 (F := Ideal) (grid0.coords t) (win0_1.fill (grid0.coords t) d' g) HT b0 (ix2 e k) := by
  rw [pay4_apply, pay4_apply, coords0 t]
  by_cases h : t.val * 512 + e.val < 10000
  · rw [if_pos h, if_pos h]
    refine congrArg (· + b0 (ix2 0 k)) (Finset.sum_congr rfl fun n _ => ?_)
    rw [fill1_indep t d d' g n e h]
  · rw [if_neg h, if_neg h]

theorem pay5_fill_indep :
    k0_pay5 (F := Ideal) (grid0.coords t) (win0_1.fill (grid0.coords t) d g) HT b0
      = k0_pay5 (F := Ideal) (grid0.coords t) (win0_1.fill (grid0.coords t) d' g) HT b0 := by
  funext j
  obtain ⟨e, k, rfl⟩ : ∃ (e : Fin 512) (k : Fin 128), j = ix2 e k := ⟨j 0, j 1, eq_ix2 j⟩
  rw [pay5_apply, pay5_apply, pay4_fill_indep t d d' g e k]

theorem pay7_fill_indep {W1 : Vec Ideal S128x128 .f32} {a : Vec Ideal S10000x128 .f32} :
    k0_pay7 (F := Ideal) (grid0.coords t) (win0_1.fill (grid0.coords t) d g) HT b0 W1 a
      = k0_pay7 (F := Ideal) (grid0.coords t) (win0_1.fill (grid0.coords t) d' g) HT b0 W1 a := by
  funext j
  obtain ⟨n, q, rfl⟩ : ∃ (n : Fin 10000) (q : Fin 128), j = ix2 n q := ⟨j 0, j 1, eq_ix2 j⟩
  rw [pay7_apply, pay7_apply]
  refine congrArg (a (ix2 n q) + ·) (Finset.sum_congr rfl fun e _ => ?_)
  simp only [pay4_fill_indep t d d' g e]
  by_cases h : t.val * 512 + e.val < 10000
  · rw [fill1_indep t d d' g n e h]
  · have hz : (∑ k : Fin 128, k0_pay4 (F := Ideal) (grid0.coords t) (win0_1.fill (grid0.coords t) d' g) HT b0 (ix2 e k) * W1 (ix2 k q)) = 0 := by
      refine Finset.sum_eq_zero fun k _ => ?_
      rw [pay4_apply, coords0 t, if_neg h, zero_mul]
    rw [hz, mul_zero, mul_zero]

end Cert.KernelIdeal.Valued

end
-- ==== Proof.IdealData.lean ====
/-
  The idealized kernel's run with every buffer's contents named, point by point.

  The proof data says what each staging buffer holds after the body at each grid point:
  * an input window, its block of the argument array (the incidence stripe filled out, past the array's last column,
    with a fixed word: the last stripe overhangs the array, and what its buffer holds there nothing names);
  * the hyperedge window, the rectified masked rows the body stores there, computed from the stripe so filled out;
  * the accumulator window, by recursion on the point: zero plus the first stripe's contribution, then the previous
    contents plus each stripe's contribution, and at the last point that sum with the second bias added, rectified;
  * the scratch (held in the invariant after the first point): the transposed projected node features.
  The body's stores do not depend on the words past the array's end: the rows of the hyperedge block that those
  columns feed are masked to zero before anything reads them, and zero times any extended real is zero
  (`pay5_fill_indep`, `pay7_fill_indep`). That is what lets the data name the buffers' contents at all.
-/
import proofs.«121287_g35845797052899_cont_8to1_b_606_25_alg».proof.Proof.IdealRuns
import proofs.«121287_g35845797052899_cont_8to1_b_606_25_alg».proof.Proof.IdealFill
import Idealize.ShloMosaic.Lib.Pipeline.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The kinds of point -/

/-- The body's first-point condition, from the grid coordinates. -/
abbrev condFirst (i : grid0.Coords) : Prop := (Scalar.cmpi .ne (Scalar.extui (Scalar.cmpi .eq (BitVec.ofNat 32 (i 0).val) 0#32)) 0#32) = 1#1
/-- The body's last-point condition. -/
abbrev condLast (i : grid0.Coords) : Prop := (Scalar.cmpi .ne (Scalar.extui (Scalar.cmpi .eq (BitVec.ofNat 32 (i 0).val) 19#32)) 0#32) = 1#1
/-- Decided over the grid: the first holds at point 0 only, -/
theorem hcondFirst : ∀ t : Fin cfg0.N, condFirst (grid0.coords t) ↔ t.val = 0 :=
  (by decide +kernel : ∀ t : Fin grid0.N, condFirst (grid0.coords t) ↔ t.val = 0)
/-- the second at point 19 only. -/
theorem hcondLast : ∀ t : Fin cfg0.N, condLast (grid0.coords t) ↔ t.val = 19 :=
  (by decide +kernel : ∀ t : Fin grid0.N, condLast (grid0.coords t) ↔ t.val = 19)

/-- The first grid point. -/
abbrev t0 : Fin cfg0.N := ⟨0, by decide⟩

/-! ## What the buffers hold -/

/-- The scratch operand as a memref. -/
abbrev scM : Memref sig .tc .vmem S128x10000 .bf16 := Memref.whole cc0_scratch0

/-- The word the stripe is filled out with past the array's last column (any word would do). -/
abbrev zw : Elt Ideal .f32 := Scalar.ofBits (F := Ideal) .f32 0#32

/-- The incidence stripe at point `t`, filled out past the array's last column with the zero word. -/
def stripe (c : Dev nD) (t : Fin cfg0.N) : Vec Ideal S10000x512 .f32 :=
  win0_1.fill (grid0.coords t) (fun _ => zw) (iblk m c 1 t)

/-- The scratch after the first point: the projected node features, transposed. -/
def featT (c : Dev nD) : Vec Ideal S128x10000 .bf16 := k0_pay2 (iblk m c 0 t0) (iblk m c 2 t0)

/-- The hyperedge buffer after point `t`. -/
def edgeAt (c : Dev nD) (t : Fin cfg0.N) : Vec Ideal S512x128 .f32 :=
  k0_pay5 (grid0.coords t) (stripe m c t) (featT m c) (iblk m c 4 t)

/-- The running sum of the stripes' contributions after point `n`. -/
def accAt (c : Dev nD) : (n : ℕ) → n < cfg0.N → Vec Ideal S10000x128 .f32
  | 0, hn => k0_pay7 (grid0.coords ⟨0, hn⟩) (stripe m c ⟨0, hn⟩) (featT m c) (iblk m c 4 ⟨0, hn⟩) (iblk m c 3 ⟨0, hn⟩) (k0_pay6 (F := Ideal))
  | n + 1, hn => k0_pay7 (grid0.coords ⟨n + 1, hn⟩) (stripe m c ⟨n + 1, hn⟩) (featT m c) (iblk m c 4 ⟨n + 1, hn⟩) (iblk m c 3 ⟨n + 1, hn⟩)
      (accAt c n (Nat.lt_of_succ_lt hn))

theorem accAt_pos (c : Dev nD) (t : Fin cfg0.N) (ht : t.val ≠ 0) :
    accAt m c t.val t.isLt = k0_pay7 (grid0.coords t) (stripe m c t) (featT m c) (iblk m c 4 t) (iblk m c 3 t)
      (accAt m c (t.val - 1) (Nat.lt_of_le_of_lt (Nat.sub_le _ _) t.isLt)) := by
  obtain ⟨n, hn⟩ := t
  cases n with
  | zero => exact absurd rfl ht
  | succ n => rfl

/-- The accumulator buffer after point `t`: the running sum, and at the last point the finished result. -/
def outAt (c : Dev nD) (t : Fin cfg0.N) : Vec Ideal S10000x128 .f32 :=
  if t.val = 19 then k0_pay1 (accAt m c t.val t.isLt) (iblk m c 5 t) else accAt m c t.val t.isLt

/-- The invariant before position `n`: before the first point the scratch at anything; afterwards at `featT`. -/
def PhiS (c : Dev nD) : ℕ → sProp 𝕄
  | 0 => Pipeline.ΦA spec0 c
  | _ + 1 => iprop(iprop(owns (c : Thread nD τ) scM fullShare (featT m c)) ∗ (∃ r, prngReg c r))

theorem PhiS_pos (c : Dev nD) (n : ℕ) (hn : n ≠ 0) :
    PhiS m c n = iprop(iprop(owns (c : Thread nD τ) scM fullShare (featT m c)) ∗ (∃ r, prngReg c r)) := by
  cases n with
  | zero => exact absurd rfl hn
  | succ n => rfl

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => stripe m c t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => edgeAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = stripe m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]
theorem after7 (c : Dev nD) (t : Fin cfg0.N) : (dats m 0 c).after 7 t = edgeAt m c t := by dsimp only [dats]

/-! ## What the body finds -/

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The incidence stripe's buffer, fetched at every point: the array's columns where the fetch lands, `d` past them. -/
theorem before1 (c : Dev nD) (t : Fin cfg0.N) (d) :
    (dats m 0 c).before 1 t d = win0_1.fill (grid0.coords t) d (iblk m c 1 t) := by
  unfold Dat.before; rw [if_pos (fetch0_1 t)]; rfl

/-- The accumulator's buffer at the first point: anything. -/
theorem before6_zero (c : Dev nD) (t : Fin cfg0.N) (h0 : t.val = 0) (d) : (dats m 0 c).before 6 t d = d :=
  (dats m 0 c).before_out_reset 6 rfl t (.inl h0) d

/-- Later: what the point before left (the buffer is written back at the last point only). -/
theorem before6_pos (c : Dev nD) (t : Fin cfg0.N) (h0 : t.val ≠ 0) (d) :
    (dats m 0 c).before 6 t d = outAt m c ⟨t.val - 1, Nat.lt_of_le_of_lt (Nat.sub_le _ _) t.isLt⟩ := by
  have hN : t.val < 20 := lt_of_lt_of_eq t.isLt (show cfg0.N = 20 from N_0)
  rw [(dats m 0 c).before_out_kept 6 rfl t h0
    (by
      have := (flush0_6 ⟨t.val - 1, Nat.lt_of_le_of_lt (Nat.sub_le _ _) t.isLt⟩)
      cases hfl : (cfg0.win 6).flush ⟨t.val - 1, Nat.lt_of_le_of_lt (Nat.sub_le _ _) t.isLt⟩ with
      | false => rfl
      | true => exfalso; have := this.mp hfl; simp only at this; omega)
    (fun _ => rfl) (fun _ _ => rfl) d, after6]

/-- The hyperedge buffer is written back at every point: the body finds anything there. -/
theorem before7 (c : Dev nD) (t : Fin cfg0.N) (d) : (dats m 0 c).before 7 t d = d := by
  by_cases h0 : t.val = 0
  · exact (dats m 0 c).before_out_reset 7 rfl t (.inl h0) d
  · exact (dats m 0 c).before_out_reset 7 rfl t (.inr ⟨h0, flush0_7 _⟩) d

/-! ## The body obligation -/

set_option maxHeartbeats 4000000 in
/-- The body at every point, from what it finds to what the data says it leaves. -/
theorem body_obligation (c : Dev nD) : BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl]
  rw [show (dats m 0 c).Φ t.succ = PhiS m c (t.val + 1) from rfl, PhiS_pos m c (t.val + 1) (Nat.succ_ne_zero _),
    show (dats m 0 c).Φ t.castSucc = PhiS m c t.val from rfl]
  rw [after0, after1, after2, after3, after4, after5, after6, after7]
  simp only [before0 m c t, before1 m c t, before2 m c t, before3 m c t, before4 m c t, before5 m c t, before7 m c t]
  have hN : t.val < 20 := lt_of_lt_of_eq t.isLt (show cfg0.N = 20 from N_0)
  have hstripe : (win0 1).cut (grid0.coords t) (stripe m c t) = iblk m c 1 t := win0_1.cut_fill _ _ _
  rw [hstripe]
  by_cases h0 : t.val = 0
  · -- the first point
    have hA : condFirst (grid0.coords t) := (hcondFirst t).mpr h0
    have hC : ¬condLast (grid0.coords t) := fun h => by have := (hcondLast t).mp h; omega
    simp only [before6_zero m c t h0]
    rw [show PhiS m c t.val = Pipeline.ΦA spec0 c from by rw [h0]; rfl, PhiA_eq]
    have ht : t = t0 := Fin.ext h0
    have eS : k0_pay2 (F := Ideal) (iblk m c 0 t) (iblk m c 2 t) = featT m c := by rw [ht]; rfl
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e6 : k0_pay7 (F := Ideal) (grid0.coords t) (win0_1.fill (grid0.coords t) d1 (iblk m c 1 t)) (k0_pay2 (iblk m c 0 t) (iblk m c 2 t)) (iblk m c 4 t) (iblk m c 3 t) (k0_pay6 (F := Ideal)) = outAt m c t := by
      rw [eS, pay7_fill_indep t d1 (fun _ => zw) (iblk m c 1 t)]
      unfold outAt; rw [if_neg (by omega)]
      subst ht; rfl
    have e7 : k0_pay5 (F := Ideal) (grid0.coords t) (win0_1.fill (grid0.coords t) d1 (iblk m c 1 t)) (k0_pay2 (iblk m c 0 t) (iblk m c 2 t)) (iblk m c 4 t) = edgeAt m c t := by
      rw [eS, pay5_fill_indep t d1 (fun _ => zw) (iblk m c 1 t)]; rfl
    iapply (run_first (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hA hC
      (iblk m c 0 t) (win0_1.fill (grid0.coords t) d1 (iblk m c 1 t)) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    irw [← e6, ← e7, ← eS]
    isplitl [HS Hg]
    · isplitl [HS]; · iexact HS
      iexact Hg
    isplitl [Ho]; · iexact Ho
    isplitl [H0]; · iexact H0
    isplitl [H1]; · iexists d1; iexact H1
    isplitl [H2]; · iexact H2
    isplitl [H3]; · iexact H3
    isplitl [H4]; · iexact H4
    isplitl [H5]; · iexact H5
    isplitl [H6]; · iexact H6
    iexists _; irw [Window.fill_cut]; iexact H7
  · simp only [before6_pos m c t h0]
    rw [PhiS_pos m c t.val h0]
    have hA : ¬condFirst (grid0.coords t) := fun h => h0 ((hcondFirst t).mp h)
    have hprev : outAt m c ⟨t.val - 1, Nat.lt_of_le_of_lt (Nat.sub_le _ _) t.isLt⟩ = accAt m c (t.val - 1) (Nat.lt_of_le_of_lt (Nat.sub_le _ _) t.isLt) := by
      unfold outAt; rw [if_neg (by simp only; omega)]
    by_cases h19 : t.val = 19
    · -- the last point
      have hC : condLast (grid0.coords t) := (hcondLast t).mpr h19
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have e7 : k0_pay5 (F := Ideal) (grid0.coords t) (win0_1.fill (grid0.coords t) d1 (iblk m c 1 t)) (featT m c) (iblk m c 4 t) = edgeAt m c t := by
        rw [pay5_fill_indep t d1 (fun _ => zw) (iblk m c 1 t)]; rfl
      have e6 : k0_pay1 (F := Ideal) (k0_pay7 (F := Ideal) (grid0.coords t) (win0_1.fill (grid0.coords t) d1 (iblk m c 1 t)) (featT m c) (iblk m c 4 t) (iblk m c 3 t) (outAt m c ⟨t.val - 1, Nat.lt_of_le_of_lt (Nat.sub_le _ _) t.isLt⟩)) (iblk m c 5 t) = outAt m c t := by
        rw [pay7_fill_indep t d1 (fun _ => zw) (iblk m c 1 t), hprev]
        conv_rhs => unfold outAt
        rw [if_pos h19, accAt_pos m c t h0]; rfl
      iapply (run_last (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hA hC
        (iblk m c 0 t) (win0_1.fill (grid0.coords t) d1 (iblk m c 1 t)) (iblk m c 2 t) (iblk m c 3 t) (iblk m c 4 t) (iblk m c 5 t)
        (outAt m c ⟨t.val - 1, Nat.lt_of_le_of_lt (Nat.sub_le _ _) t.isLt⟩) (featT m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      irw [← e6, ← e7]
      isplitl [HS Hg]
      · isplitl [HS]; · iexact HS
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      isplitl [H6]; · iexact H6
      iexists _; irw [Window.fill_cut]; iexact H7
    · -- a middle point
      have hC : ¬condLast (grid0.coords t) := fun h => h19 ((hcondLast t).mp h)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have e7 : k0_pay5 (F := Ideal) (grid0.coords t) (win0_1.fill (grid0.coords t) d1 (iblk m c 1 t)) (featT m c) (iblk m c 4 t) = edgeAt m c t := by
        rw [pay5_fill_indep t d1 (fun _ => zw) (iblk m c 1 t)]; rfl
      have e6 : k0_pay7 (F := Ideal) (grid0.coords t) (win0_1.fill (grid0.coords t) d1 (iblk m c 1 t)) (featT m c) (iblk m c 4 t) (iblk m c 3 t) (outAt m c ⟨t.val - 1, Nat.lt_of_le_of_lt (Nat.sub_le _ _) t.isLt⟩) = outAt m c t := by
        rw [pay7_fill_indep t d1 (fun _ => zw) (iblk m c 1 t), hprev]
        conv_rhs => unfold outAt
        rw [if_neg h19, accAt_pos m c t h0]; rfl
      iapply (run_mid (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) hA hC
        (iblk m c 0 t) (win0_1.fill (grid0.coords t) d1 (iblk m c 1 t)) (iblk m c 2 t) (iblk m c 3 t) (iblk m c 4 t) (iblk m c 5 t)
        (outAt m c ⟨t.val - 1, Nat.lt_of_le_of_lt (Nat.sub_le _ _) t.isLt⟩) (featT m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      irw [← e6, ← e7]
      isplitl [HS Hg]
      · isplitl [HS]; · iexact HS
        iexact Hg
      isplitl [Ho]; · iexact Ho
      isplitl [H0]; · iexact H0
      isplitl [H1]; · iexists d1; iexact H1
      isplitl [H2]; · iexact H2
      isplitl [H3]; · iexact H3
      isplitl [H4]; · iexact H4
      isplitl [H5]; · iexact H5
      isplitl [H6]; · iexact H6
      iexists _; irw [Window.fill_cut]; iexact H7

/-! ## The run -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 20 := N_0; omega), PhiA_eq]
  iintro ⟨HS, Hg⟩
  isplitl [HS]
  · iexists _; iexact HS
  iexact Hg

set_option backward.isDefEq.respectTransparency.types false in
/-- Every weakly fair execution of @main at the ideal values terminates, and every array of the pipeline ends at
    what the library computes from the data: an argument as launched, a result its launch contents overwritten by
    what the body left at each write-back. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Valued

end
-- ==== Proof.BlockWrites.lean ====
/-
  The kernel's whole-array windows and its two result windows.

  A whole-array window has one block, at block index (0, 0): read through it, the array is itself.  The first result's
  window is such a block, written back at the last point, so that one write-back covers the whole array.  The second
  result's window moves along the rows in 20 blocks of 512 × 128, the last cut to the 272 rows inside the array:
  what point t writes back is rows 512 t, …, of the staging block, and the 20 cut blocks cover all 10000 rows
  (row r lies in block r / 512).
-/
import proofs.«121287_g35845797052899_cont_8to1_b_606_25_alg».proof.Proof.BlockReads

noncomputable section

namespace Cert.KernelIdeal.Blocks

open Cert.KernelIdeal Cert.KernelIdeal.Gen Idealize.ShloMosaic Idealize.ShloMosaic.ValueIdx

/-! ## The whole-array windows -/

/-- Every whole-array window is at block index (0, 0) at every point. -/
theorem index_whole : ∀ t : Fin cfg0.N,
    (win0_0.index t (0 : Fin 2) = 0 ∧ win0_0.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N,
    (win0_0.index t (0 : Fin 2) = 0 ∧ win0_0.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0))

/-- The node features, read through their window, are the node features. -/
theorem read_whole_0 (A : S10000x128.Idx → Elt Ideal .f32) (t : Fin cfg0.N) (y : S10000x128.Idx) :
    ((cfg0.win 0).blk t).view.read (Elt Ideal) A y = A y := by
  obtain ⟨⟨i0, i1⟩, -⟩ := index_whole t
  show A (((cfg0.win 0).blk t).view.emb y) = A y
  congr 1
  funext a; apply Fin.ext
  match a with
  | ⟨0, _⟩ => show win0_0.index t (0 : Fin 2) * 10000 + 1 * (y 0).val = (y 0).val; rw [i0]; omega
  | ⟨1, _⟩ => show win0_0.index t (1 : Fin 2) * 128 + 1 * (y 1).val = (y 1).val; rw [i1]; omega

/-- The first weight matrix, read through its window, is itself. -/
theorem read_whole_2 (A : S128x128.Idx → Elt Ideal .f32) (t : Fin cfg0.N) (y : S128x128.Idx) :
    ((cfg0.win 2).blk t).view.read (Elt Ideal) A y = A y := by
  obtain ⟨-, ⟨i0, i1⟩, -⟩ := index_whole t
  show A (((cfg0.win 2).blk t).view.emb y) = A y
  congr 1
  funext a; apply Fin.ext
  match a with
  | ⟨0, _⟩ => show win0_2.index t (0 : Fin 2) * 128 + 1 * (y 0).val = (y 0).val; rw [i0]; omega
  | ⟨1, _⟩ => show win0_2.index t (1 : Fin 2) * 128 + 1 * (y 1).val = (y 1).val; rw [i1]; omega

/-- The second weight matrix, read through its window, is itself. -/
theorem read_whole_3 (A : S128x128.Idx → Elt Ideal .f32) (t : Fin cfg0.N) (y : S128x128.Idx) :
    ((cfg0.win 3).blk t).view.read (Elt Ideal) A y = A y := by
  obtain ⟨-, -, ⟨i0, i1⟩, -⟩ := index_whole t
  show A (((cfg0.win 3).blk t).view.emb y) = A y
  congr 1
  funext a; apply Fin.ext
  match a with
  | ⟨0, _⟩ => show win0_3.index t (0 : Fin 2) * 128 + 1 * (y 0).val = (y 0).val; rw [i0]; omega
  | ⟨1, _⟩ => show win0_3.index t (1 : Fin 2) * 128 + 1 * (y 1).val = (y 1).val; rw [i1]; omega

/-- The first bias row, read through its window, is itself. -/
theorem read_whole_4 (A : S1x128.Idx → Elt Ideal .f32) (t : Fin cfg0.N) (y : S1x128.Idx) :
    ((cfg0.win 4).blk t).view.read (Elt Ideal) A y = A y := by
  obtain ⟨-, -, -, ⟨i0, i1⟩, -⟩ := index_whole t
  show A (((cfg0.win 4).blk t).view.emb y) = A y
  congr 1
  funext a; apply Fin.ext
  match a with
  | ⟨0, _⟩ => show win0_4.index t (0 : Fin 2) * 1 + 1 * (y 0).val = (y 0).val; rw [i0]; omega
  | ⟨1, _⟩ => show win0_4.index t (1 : Fin 2) * 128 + 1 * (y 1).val = (y 1).val; rw [i1]; omega

/-- The second bias row, read through its window, is itself. -/
theorem read_whole_5 (A : S1x128.Idx → Elt Ideal .f32) (t : Fin cfg0.N) (y : S1x128.Idx) :
    ((cfg0.win 5).blk t).view.read (Elt Ideal) A y = A y := by
  obtain ⟨-, -, -, -, ⟨i0, i1⟩, -⟩ := index_whole t
  show A (((cfg0.win 5).blk t).view.emb y) = A y
  congr 1
  funext a; apply Fin.ext
  match a with
  | ⟨0, _⟩ => show win0_5.index t (0 : Fin 2) * 1 + 1 * (y 0).val = (y 0).val; rw [i0]; omega
  | ⟨1, _⟩ => show win0_5.index t (1 : Fin 2) * 128 + 1 * (y 1).val = (y 1).val; rw [i1]; omega

/-! ## The second result's window: 20 blocks of 512 rows, the last cut -/

/-- What point t writes back is the array's block at t, if the staging block holds the array's rows 512 t + e on
    its rows e inside the array. -/
theorem cut7_eq (t : Fin cfg0.N) (X : S512x128.Idx → Elt Ideal .f32) (G : S10000x128.Idx → Elt Ideal .f32)
    (h : ∀ (e : Fin 512) (k : Fin 128) (he : t.val * 512 + e.val < 10000),
      X (ix2 e k) = G (ix2 ⟨t.val * 512 + e.val, he⟩ k)) :
    win0_7.cut (grid0.coords t) X = ((cfg0.win 7).blk t).view.read (Elt Ideal) G := by
  obtain ⟨i0, i1⟩ := index7 t
  obtain ⟨x0, x1⟩ := xsize7 t
  funext j
  have hj0 : (j (0 : Fin 2)).val < win0_7.xsize (grid0.coords t) (0 : Fin 2) := (j (0 : Fin 2)).isLt
  have hj1 : (j (1 : Fin 2)).val < win0_7.xsize (grid0.coords t) (1 : Fin 2) := (j (1 : Fin 2)).isLt
  rw [x0] at hj0
  rw [x1] at hj1
  have he : t.val * 512 + (j (0 : Fin 2)).val < 10000 := by omega
  have he' : (j (0 : Fin 2)).val < 512 := by omega
  have hX : win0_7.xinj (grid0.coords t) j
      = ix2 (⟨(j (0 : Fin 2)).val, he'⟩ : Fin 512) (⟨(j (1 : Fin 2)).val, hj1⟩ : Fin 128) :=
    funext fun a => Fin.ext (by match a with | ⟨0, _⟩ => rfl | ⟨1, _⟩ => rfl)
  have hG : ((cfg0.win 7).blk t).view.emb j
      = ix2 (⟨t.val * 512 + (j (0 : Fin 2)).val, he⟩ : Fin 10000) (⟨(j (1 : Fin 2)).val, hj1⟩ : Fin 128) := by
    funext a; apply Fin.ext
    match a with
    | ⟨0, _⟩ => show win0_7.index t (0 : Fin 2) * 512 + 1 * (j (0 : Fin 2)).val = t.val * 512 + (j (0 : Fin 2)).val; rw [i0]
                omega
    | ⟨1, _⟩ => show win0_7.index t (1 : Fin 2) * 128 + 1 * (j (1 : Fin 2)).val = (j (1 : Fin 2)).val; rw [i1]; omega
  show X (win0_7.xinj (grid0.coords t) j) = G (((cfg0.win 7).blk t).view.emb j)
  rw [hX, hG]
  exact h _ _ he

/-- An index of the second result is in point t's block iff its row is one of the block's rows inside the array. -/
theorem mem_blk7 (t : Fin cfg0.N) (i : S10000x128.Idx) :
    i ∈ ((cfg0.win 7).blk t).view.set
      ↔ t.val * 512 ≤ (i 0).val ∧ (i 0).val < t.val * 512 + min 512 (10000 - t.val * 512) := by
  show i ∈ ((View.whole main_v0_1).slice (win0_7.rect t)).set ↔ _
  rw [View.set_slice_whole, Rect.mem_set_unit]
  obtain ⟨i0, i1⟩ := index7 t
  obtain ⟨x0, x1⟩ := xsize7 t
  have h1 : (i 1).val < 128 := (i 1).isLt
  constructor
  · intro h
    have h0 : win0_7.index t (0 : Fin 2) * 512 ≤ (i 0).val
        ∧ (i 0).val < win0_7.index t (0 : Fin 2) * 512 + win0_7.xsize (grid0.coords t) (0 : Fin 2) := h 0
    rw [i0, x0] at h0
    exact h0
  · intro h a
    match a with
    | ⟨0, _⟩ =>
      show win0_7.index t (0 : Fin 2) * 512 ≤ (i 0).val
        ∧ (i 0).val < win0_7.index t (0 : Fin 2) * 512 + win0_7.xsize (grid0.coords t) (0 : Fin 2)
      rw [i0, x0]; exact h
    | ⟨1, _⟩ =>
      show win0_7.index t (1 : Fin 2) * 128 ≤ (i 1).val
        ∧ (i 1).val < win0_7.index t (1 : Fin 2) * 128 + win0_7.xsize (grid0.coords t) (1 : Fin 2)
      rw [i1, x1]; omega

/-- Every index of the second result is written back by some point: row r by point r / 512. -/
theorem cover7 : ∀ i : S10000x128.Idx,
    ∃ t : Fin cfg0.N, (cfg0.win 7).flush t = true ∧ i ∈ ((cfg0.win 7).blk t).view.set := by
  intro i
  have hi : (i 0).val < 10000 := (i 0).isLt
  have hN : grid0.N = 20 := by decide
  have ht : (i 0).val / 512 < cfg0.N := by show _ < grid0.N; rw [hN]; omega
  refine ⟨⟨(i 0).val / 512, ht⟩, flush0_7 _, ?_⟩
  rw [mem_blk7]
  show (i 0).val / 512 * 512 ≤ (i 0).val
    ∧ (i 0).val < (i 0).val / 512 * 512 + min 512 (10000 - (i 0).val / 512 * 512)
  omega

/-! ## The first result's window: the whole array, written back at the last point -/

/-- What a point writes back of the first result's staging block is the block, read through the window. -/
theorem cut6_eq (t : Fin cfg0.N) (G : S10000x128.Idx → Elt Ideal .f32) :
    win0_6.cut (grid0.coords t) G = ((cfg0.win 6).blk t).view.read (Elt Ideal) G := by
  obtain ⟨-, -, -, -, -, i0, i1⟩ := index_whole t
  funext j
  show G (win0_6.xinj (grid0.coords t) j) = G (((cfg0.win 6).blk t).view.emb j)
  congr 1
  funext a; apply Fin.ext
  match a with
  | ⟨0, _⟩ => show (j (0 : Fin 2)).val = win0_6.index t (0 : Fin 2) * 10000 + 1 * (j (0 : Fin 2)).val; rw [i0]; omega
  | ⟨1, _⟩ => show (j (1 : Fin 2)).val = win0_6.index t (1 : Fin 2) * 128 + 1 * (j (1 : Fin 2)).val; rw [i1]; omega

/-- Every index of the first result is written back by the last point. -/
theorem cover6 : ∀ i : S10000x128.Idx,
    ∃ t : Fin cfg0.N, (cfg0.win 6).flush t = true ∧ i ∈ ((cfg0.win 6).blk t).view.set := by
  intro i
  have hN : grid0.N = 20 := by decide
  have ht : 19 < cfg0.N := by show 19 < grid0.N; rw [hN]; omega
  refine ⟨⟨19, ht⟩, (flush0_6 ⟨19, ht⟩).mpr rfl, ?_⟩
  obtain ⟨-, -, -, -, -, i0, i1⟩ := index_whole ⟨19, ht⟩
  have h0 : (i 0).val < 10000 := (i 0).isLt
  have h1 : (i 1).val < 128 := (i 1).isLt
  show i ∈ ((View.whole main_v0_0).slice (win0_6.rect ⟨19, ht⟩)).set
  rw [View.set_slice_whole, Rect.mem_set_unit]
  intro a
  match a with
  | ⟨0, _⟩ =>
    show win0_6.index ⟨19, ht⟩ (0 : Fin 2) * 10000 ≤ (i 0).val
      ∧ (i 0).val < win0_6.index ⟨19, ht⟩ (0 : Fin 2) * 10000 + 10000
    rw [i0]; omega
  | ⟨1, _⟩ =>
    show win0_6.index ⟨19, ht⟩ (1 : Fin 2) * 128 ≤ (i 1).val
      ∧ (i 1).val < win0_6.index ⟨19, ht⟩ (1 : Fin 2) * 128 + 128
    rw [i1]; omega

end Cert.KernelIdeal.Blocks

end
-- ==== Proof.LibZeroExt.lean ====
/-
  A matrix extended by zeros.

  `zext a b w p q` reads an a × b matrix of extended reals at any pair of naturals: the entry inside the matrix, zero
  outside.  A host `pad` that adds rows below and columns to the right (no low padding, no interior padding) with
  a padding value that is zero reads, at (p, q), exactly `zext` of its operand (`pad_high_zero_apply`); and a sum
  whose terms vanish from n on does not see the indices beyond n (`sum_zero_tail`), which is what lets a product
  with zero-extended operands be cut back to the real contraction range: 0 · w = 0 for every extended real w.
-/
import Idealize.ShloMosaic.Lib.ValueIdx
import Idealize.ShloMosaic.Lib.KernelVsHost
import Idealize.ShloMosaic.Lib.Pipeline.Value
import Idealize.ShloMosaic.PureOps.Ideal

noncomputable section

open scoped BigOperators

namespace Cert.LibZeroExt

open Idealize.ShloMosaic Idealize.ShloMosaic.ValueIdx

/-- An a × b matrix extended by zeros to every pair of naturals. -/
def zext (a b : ℕ) (w : (⟨2, ![a, b]⟩ : Shape).Idx → EReal) (p q : ℕ) : EReal :=
  if h : p < a ∧ q < b then w (ix2 ⟨p, h.1⟩ ⟨q, h.2⟩) else 0

/-- Inside the matrix the extension is the matrix. -/
theorem zext_inside {a b : ℕ} (w : (⟨2, ![a, b]⟩ : Shape).Idx → EReal) (p : Fin a) (q : Fin b) :
    zext a b w p.val q.val = w (ix2 p q) := by
  unfold zext
  rw [dif_pos ⟨p.isLt, q.isLt⟩]

/-- Below the last row the extension is zero. -/
theorem zext_outside_row {a b : ℕ} (w : (⟨2, ![a, b]⟩ : Shape).Idx → EReal) (p q : ℕ) (h : a ≤ p) : zext a b w p q = 0 := by
  unfold zext
  rw [dif_neg fun hh => absurd hh.1 (Nat.not_lt.mpr h)]

/-- Right of the last column the extension is zero. -/
theorem zext_outside_col {a b : ℕ} (w : (⟨2, ![a, b]⟩ : Shape).Idx → EReal) (p q : ℕ) (h : b ≤ q) : zext a b w p q = 0 := by
  unfold zext
  rw [dif_neg fun hh => absurd hh.2 (Nat.not_lt.mpr h)]

/-- A sum whose terms vanish from n on does not see the range beyond n. -/
theorem sum_zero_tail {n m : ℕ} (hnm : n ≤ m) (f : ℕ → EReal) (hf : ∀ i, n ≤ i → f i = 0) :
    ∑ i : Fin m, f i.val = ∑ i : Fin n, f i.val := by
  rw [Fin.sum_univ_eq_sum_range f m, Fin.sum_univ_eq_sum_range f n]
  refine (Finset.sum_subset (Finset.range_mono hnm) fun i _ hi => hf i ?_).symm
  rw [Finset.mem_range] at hi
  exact Nat.le_of_not_lt hi

/-- The integer zero converted to a float is the extended real zero. -/
theorem sitofp_zero_apply {s : Shape} (i : s.Idx) :
    (sitofp (F := Ideal) .f32 (constantI s 32 0#32)) i = 0 := by
  show ((((0#32 : BitVec 32).toInt : ℤ) : ℝ) : EReal) = 0
  simp

/-- A host pad of an a × b matrix to a' × b' that only adds rows below and columns to the right, with a padding
    value that is zero, reads at (p, q) the zero extension of the matrix. -/
theorem pad_high_zero_apply {a b a' b' : ℕ} (hi : Fin 2 → ℕ) (x : (⟨2, ![a, b]⟩ : Shape).Idx → EReal) {u : Shape}
    (v : u.Idx → EReal) (h : (⟨2, ![a, b]⟩ : Shape).Pads ![0, 0] hi ![0, 0] ⟨2, ![a', b']⟩) (hu : 0 < u.numel)
    (hv : ∀ i, v i = 0) (p : Fin a') (q : Fin b') :
    pad ⟨2, ![a', b']⟩ ![0, 0] hi ![0, 0] x v h hu (ix2 p q) = zext a b x p.val q.val := by
  unfold zext
  split
  · rename_i hin
    refine pad_apply_of_inside _ _ _ x v h hu (ix2 p q) (ix2 ⟨p.val, hin.1⟩ ⟨q.val, hin.2⟩) fun ax => ?_
    match ax with
    | ⟨0, _⟩ => show p.val = 0 + p.val * (0 + 1); omega
    | ⟨1, _⟩ => show q.val = 0 + q.val * (0 + 1); omega
  · rename_i hout
    by_cases hp : p.val < a
    · have hq : ¬ q.val < b := fun hq => hout ⟨hp, hq⟩
      rw [pad_apply_of_not_inside _ _ _ x v h hu (ix2 p q) (1 : Fin 2) (fun hin => hq (by
        have h3 : (q.val - 0) / (0 + 1) < b := hin.2.2
        omega))]
      exact hv _
    · rw [pad_apply_of_not_inside _ _ _ x v h hu (ix2 p q) (0 : Fin 2) (fun hin => hp (by
        have h3 : (p.val - 0) / (0 + 1) < a := hin.2.2
        omega))]
      exact hv _

/-- An n × 1 column transposed into a 1 × n row: the row's zero extension at (0, j) is the column's at (j, 0). -/
theorem zext_transposed_column {n : ℕ} (w : (⟨2, ![n, 1]⟩ : Shape).Idx → EReal)
    (h : (⟨2, ![n, 1]⟩ : Shape).Transposes [1, 0] ⟨2, ![1, n]⟩) (j : ℕ) :
    zext 1 n (transpose ⟨2, ![1, n]⟩ [1, 0] w h) 0 j = zext n 1 w j 0 := by
  unfold zext
  by_cases hj : j < n
  · rw [dif_pos ⟨Nat.one_pos, hj⟩, dif_pos ⟨hj, Nat.one_pos⟩]
    exact transpose_apply [1, 0] w h (ix2 ⟨0, Nat.one_pos⟩ ⟨j, hj⟩) (ix2 ⟨j, hj⟩ ⟨0, Nat.one_pos⟩)
      (fun b => match b with | ⟨0, _⟩ => rfl | ⟨1, _⟩ => rfl)
  · rw [dif_neg fun hh => hj hh.2, dif_neg fun hh => hj hh.1]

end Cert.LibZeroExt

end
-- ==== Proof.LibBlockSum.lean ====
/-
  Finite sums cut into consecutive blocks, and a running sum.

  `sum_range_blocks`: a sum over the first T · s naturals is the sum over T consecutive blocks of s terms each,
  the block t holding the indices t · s, …, t · s + s − 1.

  `sum_blocks_general`: if the terms vanish from n on and the T blocks cover the first n naturals (n ≤ T · s; the last
  block may overhang), the blocked sum is the sum over the first n indices: the overhanging terms are zero.
  `sum_blocks` is the instance with 20 blocks of 512 covering 10000 indices (20 · 512 = 10240).

  `fold_add_eq_sum`: an accumulator that starts at 0 + S 0 and adds S (t + 1) at step t + 1 holds, after step n,
  the sum S 0 + … + S n.
-/
import Mathlib.Algebra.BigOperators.Fin
import Mathlib.Algebra.BigOperators.Intervals
import Mathlib.Data.EReal.Basic
import proofs.«121287_g35845797052899_cont_8to1_b_606_25_alg».proof.Proof.LibZeroExt

noncomputable section

open scoped BigOperators

namespace Cert.LibBlockSum

/-- A sum over the first T · s naturals, block by block: block t holds the indices t · s + e, e < s. -/
theorem sum_range_blocks {M : Type*} [AddCommMonoid M] (s : ℕ) (f : ℕ → M) : ∀ T : ℕ,
    ∑ t ∈ Finset.range T, ∑ e ∈ Finset.range s, f (t * s + e) = ∑ i ∈ Finset.range (T * s), f i
  | 0 => by simp
  | T + 1 => by
    rw [Finset.sum_range_succ, sum_range_blocks s f T, Nat.succ_mul, Finset.sum_range_add]

/-- T blocks of s indices covering the first n naturals (the last block may overhang), for terms that vanish
    from n on: the blocked sum is the sum over the first n indices. -/
theorem sum_blocks_general (s T n : ℕ) (hn : n ≤ T * s) (f : ℕ → EReal) (hf : ∀ i, n ≤ i → f i = 0) :
    ∑ t ∈ Finset.range T, ∑ e : Fin s, f (t * s + e.val) = ∑ E : Fin n, f E.val := by
  rw [← Cert.LibZeroExt.sum_zero_tail hn f hf, Fin.sum_univ_eq_sum_range f (T * s), ← sum_range_blocks s f T]
  refine Finset.sum_congr rfl fun t _ => ?_
  exact Fin.sum_univ_eq_sum_range (fun e => f (t * s + e)) s

/-- 20 blocks of 512 indices cover the first 10000 naturals, the last block overhanging by 240. -/
theorem sum_blocks (f : ℕ → EReal) (hf : ∀ i, 10000 ≤ i → f i = 0) :
    ∑ t ∈ Finset.range 20, ∑ e : Fin 512, f (t * 512 + e.val) = ∑ E : Fin 10000, f E.val :=
  sum_blocks_general 512 20 10000 (by decide) f hf

/-- An accumulator that starts at 0 + S 0 and adds S (t + 1) at step t + 1 is the sum of the S t up to the step. -/
theorem fold_add_eq_sum (S : ℕ → EReal) : ∀ n : ℕ,
    (Nat.rec (0 + S 0) (fun t acc => acc + S (t + 1)) n : EReal) = ∑ t ∈ Finset.range (n + 1), S t
  | 0 => by simp
  | n + 1 => by
    rw [Finset.sum_range_succ, ← fold_add_eq_sum S n]

end Cert.LibBlockSum

end
-- ==== Proof.IdealValues.lean ====
/-
  The buffers' named contents, entry by entry, in terms of the six argument arrays.

  With x₀, B, W₀, W₁, b₀, b₁ the argument arrays as launched:
  * a whole-array window's block is its array;
  * the transposed projection held in the scratch is h(n, k) = Σ_j x₀(n, j) · W₀(j, k) at (k, n);
  * the incidence stripe at point t, at a column e whose hyperedge E = 512 t + e exists, is B(n, E);
  * the stripe's masked rows are u(E, k) = Σ_n B(n, E) · h(n, k) + b₀(k) where E exists and 0 where it does not, so the
    hyperedge block after the rectifier is the second result's rows 512 t, …;
  * one stripe adds to the accumulator, at (n, q), the contributions B(n, E) · Σ_k u(E, k) · W₁(k, q) of its hyperedges
    (a hyperedge that does not exist contributes 0: its row is 0, and 0 · w = 0, x · 0 = 0 over the extended reals);
  * so the accumulator after point t' is the sum of the contributions of the stripes 0, …, t', and after the last point,
    the 20 stripes of 512 covering the 10000 hyperedges, it is Σ_E B(n, E) · (u W₁)(E, q); with the second bias added and
    the rectifier applied that is the first result.
-/
import proofs.«121287_g35845797052899_cont_8to1_b_606_25_alg».proof.Proof.IdealData
import proofs.«121287_g35845797052899_cont_8to1_b_606_25_alg».proof.Proof.KernelPayloads
import proofs.«121287_g35845797052899_cont_8to1_b_606_25_alg».proof.Proof.BlockReads
import proofs.«121287_g35845797052899_cont_8to1_b_606_25_alg».proof.Proof.BlockWrites
import proofs.«121287_g35845797052899_cont_8to1_b_606_25_alg».proof.Proof.LibBlockSum
import proofs.«121287_g35845797052899_cont_8to1_b_606_25_alg».proof.Proof.Spec

set_option maxRecDepth 16384

noncomputable section

open scoped BigOperators

namespace Cert.KernelIdeal.Valued

open Cert.KernelIdeal Cert.KernelIdeal.Gen Cert.KernelIdeal.Payloads
open Idealize.ShloMosaic Idealize.ShloMosaic.ValueIdx Idealize.ShloMosaic.TcCoe
open Idealize.SL.Sem

variable (m : (ℓ : Loc nD τ sig) → Buf (Elt Ideal) ℓ)

/-! ## The six argument arrays on a core, as matrices of extended reals -/

/-- The node features x₀. -/
abbrev X0 (c : Dev nD) : Cert.Spec.Mat 10000 128 := V m c main_arg0
/-- The incidence matrix B (nodes × hyperedges). -/
abbrev B (c : Dev nD) : Cert.Spec.Mat 10000 10000 := V m c main_arg1
/-- The first weight matrix W₀. -/
abbrev W0 (c : Dev nD) : Cert.Spec.Mat 128 128 := V m c main_arg2
/-- The second weight matrix W₁. -/
abbrev W1 (c : Dev nD) : Cert.Spec.Mat 128 128 := V m c main_arg3
/-- The first bias row b₀. -/
abbrev b0 (c : Dev nD) : Cert.Spec.Mat 1 128 := V m c main_arg4
/-- The second bias row b₁. -/
abbrev b1 (c : Dev nD) : Cert.Spec.Mat 1 128 := V m c main_arg5

/-! ## A whole-array window's block is its array -/

theorem iblk0_eq (c : Dev nD) (t : Fin cfg0.N) : (iblk m c 0 t : Vec Ideal S10000x128 .f32) = X0 m c :=
  funext fun y => Blocks.read_whole_0 (V m c main_arg0) t y
theorem iblk2_eq (c : Dev nD) (t : Fin cfg0.N) : (iblk m c 2 t : Vec Ideal S128x128 .f32) = W0 m c :=
  funext fun y => Blocks.read_whole_2 (V m c main_arg2) t y
theorem iblk3_eq (c : Dev nD) (t : Fin cfg0.N) : (iblk m c 3 t : Vec Ideal S128x128 .f32) = W1 m c :=
  funext fun y => Blocks.read_whole_3 (V m c main_arg3) t y
theorem iblk4_eq (c : Dev nD) (t : Fin cfg0.N) : (iblk m c 4 t : Vec Ideal S1x128 .f32) = b0 m c :=
  funext fun y => Blocks.read_whole_4 (V m c main_arg4) t y
theorem iblk5_eq (c : Dev nD) (t : Fin cfg0.N) : (iblk m c 5 t : Vec Ideal S1x128 .f32) = b1 m c :=
  funext fun y => Blocks.read_whole_5 (V m c main_arg5) t y

/-! ## The scratch, the stripe, and the hyperedge block -/

/-- The scratch at (k, n) is the projected node feature h(n, k). -/
theorem featT_apply (c : Dev nD) (k : Fin 128) (n : Fin 10000) :
    featT m c (ix2 k n) = Cert.Spec.hfeat (X0 m c) (W0 m c) n k := by
  unfold featT
  refine (pay2_apply _ _ k n).trans ?_
  rw [iblk0_eq m c t0, iblk2_eq m c t0]

/-- The stripe at a column whose hyperedge exists is the incidence matrix there. -/
theorem stripe_inside (c : Dev nD) (t : Fin cfg0.N) (n : Fin 10000) (e : Fin 512) (h : t.val * 512 + e.val < 10000) :
    stripe m c t (ix2 n e) = B m c (ix2 n ⟨t.val * 512 + e.val, h⟩) := by
  unfold stripe
  exact Blocks.fill1_inside (V m c main_arg1) t _ n e h

/-- The stripe's masked row e before the rectifier: u(E, k) for the hyperedge E = 512 t + e when it exists, zero when not.
    Termwise hᵀ(k, n) · B(n, E) = B(n, E) · h(n, k). -/
theorem pay4_stripe (c : Dev nD) (t : Fin cfg0.N) (e : Fin 512) (k : Fin 128) :
    k0_pay4 (F := Ideal) (grid0.coords t) (stripe m c t) (featT m c) (iblk m c 4 t) (ix2 e k)
      = if h : t.val * 512 + e.val < 10000 then
          Cert.Spec.edgePre (X0 m c) (B m c) (W0 m c) (b0 m c) ⟨t.val * 512 + e.val, h⟩ k
        else 0 := by
  rw [pay4_apply, Blocks.coords0 t]
  by_cases h : t.val * 512 + e.val < 10000
  · rw [if_pos h, dif_pos h]
    unfold Cert.Spec.edgePre
    rw [iblk4_eq]
    refine congrArg (· + b0 m c (ix2 0 k)) ?_
    refine Finset.sum_congr rfl fun n _ => ?_
    rw [featT_apply, stripe_inside m c t n e h, mul_comm]
  · rw [if_neg h, dif_neg h]

/-- The hyperedge block after point t, at a row whose hyperedge exists, is the second result there. -/
theorem edgeAt_inside (c : Dev nD) (t : Fin cfg0.N) (e : Fin 512) (k : Fin 128) (he : t.val * 512 + e.val < 10000) :
    edgeAt m c t (ix2 e k)
      = Cert.Spec.G1 (X0 m c) (B m c) (W0 m c) (b0 m c) (ix2 ⟨t.val * 512 + e.val, he⟩ k) := by
  unfold edgeAt
  rw [pay5_apply, pay4_stripe, dif_pos he]
  rfl

/-! ## The accumulator -/

/-- What hyperedge E adds to entry (n, q) of the accumulator: B(n, E) · (u W₁)(E, q), and nothing when E does not exist. -/
def contrib (c : Dev nD) (n : Fin 10000) (q : Fin 128) : ℕ → EReal := fun E =>
  if h : E < 10000 then
    B m c (ix2 n ⟨E, h⟩) * Cert.Spec.edgeProj (X0 m c) (B m c) (W0 m c) (W1 m c) (b0 m c) ⟨E, h⟩ q
  else 0

/-- One stripe adds the contributions of its 512 hyperedges. Where the hyperedge exists the stripe is B and the masked
    row is u; where it does not the masked row is zero, so the inner sum is a sum of 0 · w = 0 and the term is x · 0 = 0. -/
theorem pay7_stripe (c : Dev nD) (t : Fin cfg0.N) (a : Vec Ideal S10000x128 .f32) (n : Fin 10000) (q : Fin 128) :
    k0_pay7 (F := Ideal) (grid0.coords t) (stripe m c t) (featT m c) (iblk m c 4 t) (iblk m c 3 t) a (ix2 n q)
      = a (ix2 n q) + ∑ e : Fin 512, contrib m c n q (t.val * 512 + e.val) := by
  rw [pay7_apply]
  refine congrArg (a (ix2 n q) + ·) ?_
  refine Finset.sum_congr rfl fun e _ => ?_
  unfold contrib
  by_cases h : t.val * 512 + e.val < 10000
  · rw [dif_pos h, stripe_inside m c t n e h]
    refine congrArg (B m c (ix2 n ⟨t.val * 512 + e.val, h⟩) * ·) ?_
    unfold Cert.Spec.edgeProj
    refine Finset.sum_congr rfl fun k _ => ?_
    rw [pay4_stripe, dif_pos h, iblk3_eq]
  · rw [dif_neg h]
    have hz : (∑ k : Fin 128, k0_pay4 (F := Ideal) (grid0.coords t) (stripe m c t) (featT m c) (iblk m c 4 t) (ix2 e k)
        * (iblk m c 3 t : Vec Ideal S128x128 .f32) (ix2 k q)) = 0 := by
      refine Finset.sum_eq_zero fun k _ => ?_
      rw [pay4_stripe, dif_neg h, zero_mul]
    rw [hz, mul_zero]

/-- The accumulator after point n' is the sum of the contributions of the stripes 0, …, n'. -/
theorem accAt_sum (c : Dev nD) : ∀ (n' : ℕ) (hn : n' < cfg0.N) (n : Fin 10000) (q : Fin 128),
    accAt m c n' hn (ix2 n q) = ∑ t ∈ Finset.range (n' + 1), ∑ e : Fin 512, contrib m c n q (t * 512 + e.val)
  | 0, hn, n, q => by
    rw [accAt, pay7_stripe m c ⟨0, hn⟩, pay6_apply, zero_add, Finset.sum_range_one]
  | n' + 1, hn, n, q => by
    rw [accAt, pay7_stripe m c ⟨n' + 1, hn⟩, accAt_sum c n' (Nat.lt_of_succ_lt hn) n q,
      Finset.sum_range_succ _ (n' + 1)]

/-- After the last point the accumulator window holds the first result: the 20 stripes of 512 cover the 10000
    hyperedges, the 240 columns of the last stripe past them contributing nothing. -/
theorem outAt_last (c : Dev nD) (t : Fin cfg0.N) (h19 : t.val = 19) :
    outAt m c t = Cert.Spec.G0 (X0 m c) (B m c) (W0 m c) (W1 m c) (b0 m c) (b1 m c) := by
  funext j
  obtain ⟨n, q, rfl⟩ : ∃ (n : Fin 10000) (q : Fin 128), j = ix2 n q := ⟨j 0, j 1, eq_ix2 j⟩
  unfold outAt
  rw [if_pos h19, pay1_apply, accAt_sum, iblk5_eq, h19]
  rw [Cert.LibBlockSum.sum_blocks (contrib m c n q) (fun i hi => dif_neg (by omega))]
  unfold Cert.Spec.G0
  refine congrArg (fun x => max (x + b1 m c (ix2 0 q)) 0) ?_
  refine Finset.sum_congr rfl fun E _ => ?_
  exact dif_pos E.isLt

end Cert.KernelIdeal.Valued

end
-- ==== Proof.IdealFinal.lean ====
/-
  The idealized kernel's two result arrays after the run, as the specification's functions of the launch arrays.

  The first result's window is one block, the whole array, written back after the last grid point: the array ends
  holding what the accumulator's buffer held then, which is the layer's first output (the twenty stripes'
  contributions, each a sum over 512 hyperedges of which the last stripe's past the 10000th are zero, are one sum
  over the 10000 hyperedges). The second result's window is twenty row blocks, each written back at its point and
  the last cut at the array's end: the rows inside the array are the rectified hyperedge rows, and the blocks cover
  the array.
-/
import proofs.«121287_g35845797052899_cont_8to1_b_606_25_alg».proof.Proof.IdealData
import proofs.«121287_g35845797052899_cont_8to1_b_606_25_alg».proof.Proof.IdealValues
import proofs.«121287_g35845797052899_cont_8to1_b_606_25_alg».proof.Proof.BlockWrites

noncomputable section

namespace Cert.KernelIdeal.Valued

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The second result array after the run: the rectified hyperedge rows. -/
theorem final_edges (c : Dev nD) :
    (dats m 0 c).arrAt 7 cfg0.N
      = Cert.Spec.G1 (V m c main_arg0) (V m c main_arg1) (V m c main_arg2) (V m c main_arg4) :=
  (dats m 0 c).arrAt_eq_of_cover 7 _ (fun t _ => by
    show (cfg0.win 7).cut (grid0.coords t) ((dats m 0 c).after 7 t) = _
    rw [after7]
    exact cut7_eq t (edgeAt m c t) _ (fun e k he => edgeAt_inside m c t e k he)) cover7

/-- The first result array after the run: the layer's node output. -/
theorem final_nodes (c : Dev nD) :
    (dats m 0 c).arrAt 6 cfg0.N
      = Cert.Spec.G0 (V m c main_arg0) (V m c main_arg1) (V m c main_arg2) (V m c main_arg3) (V m c main_arg4) (V m c main_arg5) :=
  (dats m 0 c).arrAt_eq_of_cover 6 _ (fun t hf => by
    show (cfg0.win 6).cut (grid0.coords t) ((dats m 0 c).after 6 t) = _
    have hN : t.val < 20 := lt_of_lt_of_eq t.isLt (show cfg0.N = 20 from N_0)
    have h19 : t.val = 19 := by have := (flush0_6 t).mp hf; omega
    rw [after6, outAt_last m c t h19]
    exact cut6_eq t _) cover6

/-- The run at the ideal values with both results named: every weakly fair execution terminates with the first
    result at the layer's node output, the second at its rectified hyperedge rows, and the six arguments as launched. -/
theorem run : θ_run defs (onTc (τ := τ) (main (F := Ideal))) ⟨m, fun _ => 0, ρ⟩ fun r => ∀ c : Dev nD,
      r.2.mem ((c.tc : Thread nD τ).loc main_v0_0)
          = Cert.Spec.G0 (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_v0_1)
          = Cert.Spec.G1 (m ((c.tc : Thread nD τ).loc main_arg0)) (m ((c.tc : Thread nD τ).loc main_arg1)) (m ((c.tc : Thread nD τ).loc main_arg2))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final_nodes m c), ((h c).1 7).trans (final_edges m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩) (run_main m ρ)

end Cert.KernelIdeal.Valued

end
-- ==== Proof.RefSide.lean ====
/-
  The reference program's two results are the specification's two functions.

  The reference computes, over the six argument arrays, h = x₀ W₀, u = Bᵀ h + b₀, x₁ = max(u, 0) and
  x₀' = max(B (u W₁) + b₁, 0), each product a host dot_general, each bias a row broadcast over the 10000 rows, the
  rectifier's zero a scalar broadcast over the whole array.  At the ideal values a dot_general's entry is the finite
  sum over its contraction index, a broadcast reads its operand at the projected index, a transpose at the swapped
  index; read stage by stage at an entry (p, q), the composed terms are the sums the specification writes, factor for
  factor in the same order, so every step below is an equality of indices or a congruence of sums.
-/
import proofs.«121287_g35845797052899_cont_8to1_b_606_25_alg».proof.Proof.Gen.ReferenceIdeal.Read
import proofs.«121287_g35845797052899_cont_8to1_b_606_25_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The index functions of the stages, at an index given by its coordinates -/

theorem lidx_v1 (n : Fin 10000) (d k : Fin 128) : lidx_main_v1 (ix2 n d) k = ix2 n k :=
  funext fun a => Fin.ext (by match a with | ⟨0, _⟩ => rfl | ⟨1, _⟩ => rfl)
theorem ridx_v1 (n : Fin 10000) (d k : Fin 128) : ridx_main_v1 (ix2 n d) k = ix2 k d :=
  funext fun a => Fin.ext (by match a with | ⟨0, _⟩ => rfl | ⟨1, _⟩ => rfl)
theorem lidx_v2 (E : Fin 10000) (d : Fin 128) (n : Fin 10000) : lidx_main_v2 (ix2 E d) n = ix2 E n :=
  funext fun a => Fin.ext (by match a with | ⟨0, _⟩ => rfl | ⟨1, _⟩ => rfl)
theorem ridx_v2 (E : Fin 10000) (d : Fin 128) (n : Fin 10000) : ridx_main_v2 (ix2 E d) n = ix2 n d :=
  funext fun a => Fin.ext (by match a with | ⟨0, _⟩ => rfl | ⟨1, _⟩ => rfl)
theorem idx_v0 (E n : Fin 10000) : idx_main_v0 (ix2 E n) = ix2 n E :=
  funext fun a => Fin.ext (by match a with | ⟨0, _⟩ => rfl | ⟨1, _⟩ => rfl)
theorem idx_v3 (E : Fin 10000) (d : Fin 128) : idx_main_v3 (ix2 E d) = ix2 0 d :=
  funext fun a => Fin.ext (by match a with | ⟨0, _⟩ => rfl | ⟨1, _⟩ => rfl)
theorem lidx_v5 (E : Fin 10000) (d k : Fin 128) : lidx_main_v5 (ix2 E d) k = ix2 E k :=
  funext fun a => Fin.ext (by match a with | ⟨0, _⟩ => rfl | ⟨1, _⟩ => rfl)
theorem ridx_v5 (E : Fin 10000) (d k : Fin 128) : ridx_main_v5 (ix2 E d) k = ix2 k d :=
  funext fun a => Fin.ext (by match a with | ⟨0, _⟩ => rfl | ⟨1, _⟩ => rfl)
theorem lidx_v6 (n : Fin 10000) (d : Fin 128) (E : Fin 10000) : lidx_main_v6 (ix2 n d) E = ix2 n E :=
  funext fun a => Fin.ext (by match a with | ⟨0, _⟩ => rfl | ⟨1, _⟩ => rfl)
theorem ridx_v6 (n : Fin 10000) (d : Fin 128) (E : Fin 10000) : ridx_main_v6 (ix2 n d) E = ix2 E d :=
  funext fun a => Fin.ext (by match a with | ⟨0, _⟩ => rfl | ⟨1, _⟩ => rfl)
theorem idx_v7 (n : Fin 10000) (d : Fin 128) : idx_main_v7 (ix2 n d) = ix2 0 d :=
  funext fun a => Fin.ext (by match a with | ⟨0, _⟩ => rfl | ⟨1, _⟩ => rfl)

/-! ## The stages at an entry -/

variable (a0 : FVec Ideal S10000x128 .f32) (a1 : FVec Ideal S10000x10000 .f32) (a2 a3 : FVec Ideal S128x128 .f32)
  (a4 a5 : FVec Ideal S1x128 .f32)

/-- h = x₀ W₀ at (n, d). -/
theorem v1_apply (n : Fin 10000) (d : Fin 128) :
    val_main_v1 (F := Ideal) a0 a2 (ix2 n d) = Cert.Spec.hfeat a0 a2 n d := by
  rw [val_main_v1_apply]
  unfold Cert.Spec.hfeat
  refine Finset.sum_congr rfl fun k _ => ?_
  rw [lidx_v1, ridx_v1]

/-- Bᵀ h at (E, d): the transposed incidence matrix read at (E, n) is B at (n, E). -/
theorem v2_apply (E : Fin 10000) (d : Fin 128) :
    val_main_v2 (F := Ideal) a0 a1 a2 (ix2 E d) = ∑ n : Fin 10000, a1 (ix2 n E) * Cert.Spec.hfeat a0 a2 n d := by
  rw [val_main_v2_apply]
  refine Finset.sum_congr rfl fun n _ => ?_
  rw [lidx_v2, ridx_v2, val_main_v0_apply, idx_v0, v1_apply]

/-- u = Bᵀ h + b₀ at (E, d). -/
theorem v4_apply (E : Fin 10000) (d : Fin 128) :
    val_main_v4 (F := Ideal) a0 a1 a2 a4 (ix2 E d) = Cert.Spec.edgePre a0 a1 a2 a4 E d := by
  rw [val_main_v4_apply, v2_apply, val_main_v3_apply, idx_v3]
  rfl

/-- u W₁ at (E, d). -/
theorem v5_apply (E : Fin 10000) (d : Fin 128) :
    val_main_v5 (F := Ideal) a0 a1 a2 a3 a4 (ix2 E d) = Cert.Spec.edgeProj a0 a1 a2 a3 a4 E d := by
  rw [val_main_v5_apply]
  unfold Cert.Spec.edgeProj
  refine Finset.sum_congr rfl fun k _ => ?_
  rw [lidx_v5, ridx_v5, v4_apply]

/-- B (u W₁) at (n, d). -/
theorem v6_apply (n : Fin 10000) (d : Fin 128) :
    val_main_v6 (F := Ideal) a0 a1 a2 a3 a4 (ix2 n d)
      = ∑ E : Fin 10000, a1 (ix2 n E) * Cert.Spec.edgeProj a0 a1 a2 a3 a4 E d := by
  rw [val_main_v6_apply]
  refine Finset.sum_congr rfl fun E _ => ?_
  rw [lidx_v6, ridx_v6, v5_apply]

/-- The rectifier's zero, broadcast from a scalar, reads zero everywhere (first result). -/
theorem call0_zero (i : S10000x128.Idx) : val_main_call0_v0 (F := Ideal) i = 0 := by
  rw [val_main_call0_v0_apply, val_main_call0_cst_apply]
  exact Ideal.ofBits_zero_f32

/-- The rectifier's zero, broadcast from a scalar, reads zero everywhere (second result). -/
theorem call1_zero (i : S10000x128.Idx) : val_main_call1_v0 (F := Ideal) i = 0 := by
  rw [val_main_call1_v0_apply, val_main_call1_cst_apply]
  exact Ideal.ofBits_zero_f32

/-! ## The two results -/

/-- The first result's stage is x₀' = max(B (u W₁) + b₁, 0). -/
theorem val_v9_eq : val_main_v9 (F := Ideal) a0 a1 a2 a3 a4 a5 = Cert.Spec.G0 a0 a1 a2 a3 a4 a5 := by
  funext j
  obtain ⟨p, q, rfl⟩ : ∃ (p : Fin 10000) (q : Fin 128), j = ix2 p q := ⟨j 0, j 1, eq_ix2 j⟩
  rw [val_main_v9_apply, val_main_v8_apply, v6_apply, val_main_v7_apply, idx_v7, call0_zero]
  rfl

/-- The second result's stage is x₁ = max(u, 0). -/
theorem val_v10_eq : val_main_v10 (F := Ideal) a0 a1 a2 a4 = Cert.Spec.G1 a0 a1 a2 a4 := by
  funext j
  obtain ⟨p, q, rfl⟩ : ∃ (p : Fin 10000) (q : Fin 128), j = ix2 p q := ⟨j 0, j 1, eq_ix2 j⟩
  rw [val_main_v10_apply, v4_apply, call1_zero]
  rfl

/-- The first result's composed term, as the run of the reference states it, is the specification's G0. -/
theorem result0_eq :
    maximumf (addf (Host.dotGeneral (F := Ideal) dot_S10000x10000_S10000x128_S10000x128_1_0_0_1_n_n none a1 (Host.dotGeneral (F := Ideal) dot_S10000x128_S128x128_S10000x128_1_0_0_1_n_n none (addf (Host.dotGeneral (F := Ideal) dot_S10000x10000_S10000x128_S10000x128_1_0_0_1_n_n none (transpose S10000x10000 [1, 0] a1 transposes_S10000x10000_S10000x10000_1_0) (Host.dotGeneral (F := Ideal) dot_S10000x128_S128x128_S10000x128_1_0_0_1_n_n none a0 a2)) (broadcastInDim S10000x128 ![0, 1] bcast_S1x128_S10000x128_0_1 a4)) a3)) (broadcastInDim S10000x128 ![0, 1] bcast_S1x128_S10000x128_0_1 a5)) (broadcastInDim S10000x128 ![] bcast_S_S10000x128 (constant (F := Ideal) S_ .f32 0x00000000#32))
      = Cert.Spec.G0 a0 a1 a2 a3 a4 a5 :=
  (val_main_v9_eq (F := Ideal) a0 a1 a2 a3 a4 a5).trans (val_v9_eq a0 a1 a2 a3 a4 a5)

/-- The second result's composed term, as the run of the reference states it, is the specification's G1. -/
theorem result1_eq :
    maximumf (addf (Host.dotGeneral (F := Ideal) dot_S10000x10000_S10000x128_S10000x128_1_0_0_1_n_n none (transpose S10000x10000 [1, 0] a1 transposes_S10000x10000_S10000x10000_1_0) (Host.dotGeneral (F := Ideal) dot_S10000x128_S128x128_S10000x128_1_0_0_1_n_n none a0 a2)) (broadcastInDim S10000x128 ![0, 1] bcast_S1x128_S10000x128_0_1 a4)) (broadcastInDim S10000x128 ![] bcast_S_S10000x128 (constant (F := Ideal) S_ .f32 0x00000000#32))
      = Cert.Spec.G1 a0 a1 a2 a4 :=
  (val_main_v10_eq (F := Ideal) a0 a1 a2 a4).trans (val_v10_eq a0 a1 a2 a4)

end Cert.ReferenceIdeal.RefValue

end
-- ==== Proof.lean ====
/-
  The certificate of the hypergraph layer kernel against its reference, over the extended reals.

  With x₀ the node features, B the incidence matrix (nodes × hyperedges), W₀, W₁ the weights and b₀, b₁ the bias rows,
  both programs compute  u = Bᵀ (x₀ W₀) + b₀,  x₁ = max(u, 0),  x₀' = max(B (u W₁) + b₁, 0)  and return (x₀', x₁).
  The reference does it with four whole matrix products. The kernel streams B once, in twenty stripes of 512
  hyperedges: it keeps (x₀ W₀)ᵀ in a scratch buffer from the first grid point on, forms each stripe's rows of u,
  stores their rectification, and adds B_j (u_j W₁) to an accumulator that the last point finishes. The last stripe
  overhangs the 10000 hyperedges; its rows past the end are masked to zero, so the columns of B's staging buffer
  that nothing names meet only zeros. At the ideal values the two results are equal entry by entry: the only laws
  used are commutativity of the product, associativity and commutativity of the sum, and 0 · w = 0 — none needs a
  finite operand, so the precondition is never opened.

  The frames: the kernel as printed runs from any buffer contents and never writes an argument array; the idealized
  kernel's frame is its valued run; the reference's frame is its run with the results dropped. The idealization
  rewrote no operation, so the preservation conjunct is trivial.
-/
import proofs.«121287_g35845797052899_cont_8to1_b_606_25_alg».proof.Defs
import proofs.«121287_g35845797052899_cont_8to1_b_606_25_alg».proof.Proof.Gen.Kernel
import proofs.«121287_g35845797052899_cont_8to1_b_606_25_alg».proof.Proof.Gen.KernelIdeal
import proofs.«121287_g35845797052899_cont_8to1_b_606_25_alg».proof.Proof.Gen.ReferenceIdeal
import proofs.«121287_g35845797052899_cont_8to1_b_606_25_alg».proof.Proof.Gen.Pre_finite_inputs
import proofs.«121287_g35845797052899_cont_8to1_b_606_25_alg».proof.Proof.Gen.ReferenceIdeal.Read
import proofs.«121287_g35845797052899_cont_8to1_b_606_25_alg».proof.Proof.WordFrame
import proofs.«121287_g35845797052899_cont_8to1_b_606_25_alg».proof.Proof.IdealFinal
import proofs.«121287_g35845797052899_cont_8to1_b_606_25_alg».proof.Proof.RefSide
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Free.frame (F := Bits) m ρ

theorem frame_kernel_ideal : Cert.frame_KernelIdeal :=
  fun m ρ _ => Cert.KernelIdeal.Gen.frame_of m ρ (Cert.KernelIdeal.Valued.dats m) (Cert.KernelIdeal.Valued.A_eq m)
    (Cert.KernelIdeal.Valued.run_main m ρ)

theorem frame_reference_ideal : Cert.frame_ReferenceIdeal :=
  fun m ρ _ => (θ_run Cert.ReferenceIdeal.defs _ _).mono (fun _ h c => (h c).2.2)
    (Cert.ReferenceIdeal.Value.run (F := Ideal) m ρ)

/-- Both programs end with the specification's two functions of arguments that agree. -/
theorem algebraic : Cert.algebraic_KernelIdeal_ReferenceIdeal := by
  intro m ρ m' ρ' _ hagree
  refine ⟨_, _, Cert.KernelIdeal.Valued.run m ρ, ?_⟩
  refine (θ_run Cert.ReferenceIdeal.defs _ _).mono (fun r h c => ?_) (Cert.ReferenceIdeal.Value.run (F := Ideal) m' ρ')
  obtain ⟨h9, h10, hargs⟩ := h c
  obtain ⟨e0, e1, e2, e3, e4, e5⟩ := hagree c
  refine ⟨h9.trans ?_, h10.trans ?_, hargs⟩
  · rw [Cert.ReferenceIdeal.RefValue.result0_eq, e0, e1, e2, e3, e4, e5]
  · rw [Cert.ReferenceIdeal.RefValue.result1_eq, e0, e1, e2, e4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
